-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S512x768 : Shape := ⟨2, ![512, 768]⟩
abbrev S16384x512 : Shape := ⟨2, ![16384, 512]⟩
abbrev S16384 : Shape := ⟨1, ![16384]⟩
abbrev S128x768 : Shape := ⟨2, ![128, 768]⟩
abbrev S128 : Shape := ⟨1, ![128]⟩
abbrev S128x256 : Shape := ⟨2, ![128, 256]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S512x768 : S_.BroadcastsInDim S512x768 (![] : Fin 0 → Fin S512x768.rank)
  reducesTo_S512x768_S_d0_1 : S512x768.ReducesTo [0, 1] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S1x128 .f32) (main_arg13 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg13 main_v48 main_v49 main_v50

def fn_part1 {F : FTy → Type} [FloatOps F] (main_arg6 : FVec F S128x768 .f32) (main_arg7 : FVec F S128 .f32) (main_arg8 : FVec F S128x256 .f32) (main_arg9 : FVec F S128 .f32) (main_arg10 : FVec F S128x128 .f32) (main_arg11 : FVec F S128 .f32) (main_arg12 : FVec F S1x128 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x768 .f32 := Host.absf main_arg6
  let main_cst_6 : FVec F S_ .f32 := constant S_ .f32 0x7F800000#32
  let main_v20 : FVec F S128x768 .f32 := broadcastInDim S128x768 ![] bcast_S_S128x768 main_cst_6
  let main_v21 : IVec S128x768 1 := cmpf .olt main_v19 main_v20
  let main_c_7 : IVec S_ 1 := constantI S_ 1 1#1
  let main_v22 : IVec S_ 1 := (fun x v => Host.reduce IntOp.andi x v reducesTo_S128x768_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S16384x768 .f32) (main_arg1 : FVec F S512x768 .f32) (main_arg2 : IVec S16384x512 32) (main_arg3 : IVec S16384 32) (main_arg4 : FVec F S128x768 .f32) (main_arg5 : FVec F S128 .f32) (main_arg6 : FVec F S128x768 .f32) (main_arg7 : FVec F S128 .f32) (main_arg8 : FVec F S128x256 .f32) (main_arg9 : FVec F S128 .f32) (main_arg10 : FVec F S128x128 .f32) (main_arg11 : FVec F S128 .f32) (main_arg12 : FVec F S1x128 .f32) (main_arg13 : FVec F S1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  let main_v9 : FVec F S128x768 .f32 := Host.absf main_arg4
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S16384x768 : Shape := ⟨2, ![16384, 768]⟩
abbrev S512x768 : Shape := ⟨2, ![512, 768]⟩
abbrev S16384x512 : Shape := ⟨2, ![16384, 512]⟩
abbrev S16384 : Shape := ⟨1, ![16384]⟩
abbrev S128x768 : Shape := ⟨2, ![128, 768]⟩
abbrev S128 : Shape := ⟨1, ![128]⟩
abbrev S128x256 : Shape := ⟨2, ![128, 256]⟩
abbrev S128x128 : Shape := ⟨2, ![128, 128]⟩
abbrev S1x128 : Shape := ⟨2, ![1, 128]⟩
abbrev S1 : Shape := ⟨1, ![1]⟩
abbrev S16384x128 : Shape := ⟨2, ![16384, 128]⟩
abbrev S1024x512 : Shape := ⟨2, ![1024, 512]⟩
abbrev S1024x768 : Shape := ⟨2, ![1024, 768]⟩
abbrev S1024x128 : Shape := ⟨2, ![1024, 128]⟩
abbrev S1024 : Shape := ⟨1, ![1024]⟩
abbrev S1024x1 : Shape := ⟨2, ![1024, 1]⟩
abbrev S768x128 : Shape := ⟨2, ![768, 128]⟩
abbrev S_ : Shape := ⟨0, ![]⟩
abbrev S16384x1 : Shape := ⟨2, ![16384, 1]⟩
abbrev S1x1 : Shape := ⟨2, ![1, 1]⟩
abbrev S2048x128 : Shape := ⟨2, ![2048, 128]⟩
abbrev S2048x256 : Shape := ⟨2, ![2048, 256]⟩
abbrev S256x128 : Shape := ⟨2, ![256, 128]⟩
abbrev S128x1 : Shape := ⟨2, ![128, 1]⟩
abbrev S2048x1 : Shape := ⟨2, ![2048, 1]⟩

abbrev nBuf : Space → Nat
  | .hbm => 32
  | .vmem => 27
  | .smem => 0
  | _ => 0

abbrev bufTy : (tb : Table) → Fin (tcTables nBuf tb) → BufTy
  | .hbm, ⟨0, _⟩ => ⟨S16384x768, .f32⟩
  | .hbm, ⟨1, _⟩ => ⟨S512x768, .f32⟩
  | .hbm, ⟨2, _⟩ => ⟨S16384x512, .i32⟩
  | .hbm, ⟨3, _⟩ => ⟨S16384, .i32⟩
  | .hbm, ⟨4, _⟩ => ⟨S128x768, .f32⟩
  | .hbm, ⟨5, _⟩ => ⟨S128, .f32⟩
  | .hbm, ⟨6, _⟩ => ⟨S128x768, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S16384x128, .f32⟩
  | .hbm, ⟨15, _⟩ => ⟨S16384x128, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384x128, .f32⟩
  | .hbm, ⟨25, _⟩ => ⟨S1x1, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1024x512, .i32⟩
  | .local _ .vmem, ⟨1, _⟩ => ⟨S1024x512, .i32⟩
  | .local _ .vmem, ⟨2, _⟩ => ⟨S1024x768, .f32⟩
  | .local _ .vmem, ⟨3, _⟩ => ⟨S1024x768, .f32⟩
  | .local _ .vmem, ⟨4, _⟩ => ⟨S512x768, .f32⟩
  | .local _ .vmem, ⟨5, _⟩ => ⟨S128x768, .f32⟩
  | .local _ .vmem, ⟨6, _⟩ => ⟨S128, .f32⟩
  | .local _ .vmem, ⟨7, _⟩ => ⟨S128x768, .f32⟩
  | .local _ .vmem, ⟨8, _⟩ => ⟨S128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S128x256, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S1x128, .f32⟩
  | .local _ .vmem, ⟨24, _⟩ => ⟨S1, .f32⟩
  | .local _ .vmem, ⟨25, _⟩ => ⟨S1x1, .f32⟩
  | .local _ .vmem, ⟨26, _⟩ => ⟨S1x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  broadcasts_S1024x1_S1024x768 : S1024x1.Broadcasts S1024x768
  inb_S1024x768_S1024x768_0_0 : ∀ a, (![0, 0] : Fin 2 → Nat) a + S1024x768.size a ≤ S1024x768.size a
  h_S1024x768 : 0 < S1024x768.numel
  inb_S128x768_S128x768_0_0 : ∀ a, (![0, 0] : Fin 2 → Nat) a + S128x768.size a ≤ S128x768.size a
  h_S128x768 : 0 < S128x768.numel
  transposes_S128x768_p1_0_S768x128 : S128x768.Transposes [1, 0] S768x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  bcast_S_S16384 : S_.BroadcastsInDim S16384 (![] : Fin 0 → Fin S16384.rank)
  bcast_S16384_S16384x1_0 : S16384.BroadcastsInDim S16384x1 (![0] : Fin 1 → Fin S16384x1.rank)
  inb_S1x1_S1x1_0_0 : ∀ a, (![0, 0] : Fin 2 → Nat) a + S1x1.size a ≤ S1x1.size a
  h_S1x1 : 0 < S1x1.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  concatenates_S2048x128_S2048x128_S2048x256_d1 : Shape.Concatenates [S2048x128, S2048x128] S2048x256 1
  transposes_S128x256_p1_0_S256x128 : S128x256.Transposes [1, 0] S256x128
  broadcasts_S1x128_S2048x128 : S1x128.Broadcasts S2048x128
  transposes_S128x128_p1_0_S128x128 : S128x128.Transposes [1, 0] S128x128
  transposes_S1x128_p1_0_S128x1 : S1x128.Transposes [1, 0] S128x1
  shapeCasts_S1_S1x1 : S1.ShapeCasts S1x1
  broadcasts_S1x1_S2048x1 : S1x1.Broadcasts S2048x1
  shapeCasts_S1x1_S1x1 : S1x1.ShapeCasts S1x1
  reduces_S2048x1_S1 : S2048x1.Reduces [0] S1
  shapeCasts_S1x1_S_ : S1x1.ShapeCasts S_
  dot_S1024x512_S512x768_S1024x768_1_0_0_1_n_n_wf : DotDims.WF S1024x512 S512x768 S1024x768 [1] [0] [0] [1] [] []
  dot_S1024x768_S768x128_S1024x128_1_0_0_1_n_n_wf : DotDims.WF S1024x768 S768x128 S1024x128 [1] [0] [0] [1] [] []
  gather_S16384x128_S16384x1_S16384x128_1_0_n_n_0_1_1128_wf : GatherDims.WF S16384x128 S16384x1 S16384x128 [1] [0] [] [0] [] 1 ![1, 128]
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .i32 = 32 ∨ (Rect.block (s := S16384x512) S1024x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S512x768.size a
  hwx0_2 : ∀ i : grid0.Coords, EltTy.bits .f32 = 32 ∨ (Rect.block (s := S512x768) S512x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x768.size a ≤ S128x768.size a
  hwx0_3 : ∀ i : grid0.Coords, EltTy.bits .f32 = 32 ∨ (Rect.block (s := S128x768) S128x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x768.size a ≤ S128x768.size a
  hwx0_5 : ∀ i : grid0.Coords, EltTy.bits .f32 = 32 ∨ (Rect.block (s := S128x768) S128x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S16384x128.size a
  hwx0_7 : ∀ i : grid0.Coords, EltTy.bits .f32 = 32 ∨ (Rect.block (s := S16384x128) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S16384x128.size a
  hwx0_8 : ∀ i : grid0.Coords, EltTy.bits .f32 = 32 ∨ (Rect.block (s := S16384x128) S1024x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)

variable [Facts₀]

def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf
def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def gather_S16384x128_S16384x1_S16384x128_1_0_n_n_0_1_1128 : GatherDims S16384x128 S16384x1 S16384x128 where
  offsetDims := [1]
  collapsedSliceDims := [0]
  operandBatchingDims := []
  startIndicesBatchingDims := []
  startIndexMap := [0]
  indexVectorDim := 1
  sliceSizes := ![1, 128]
  wf := gather_S16384x128_S16384x1_S16384x128_1_0_n_n_0_1_1128_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8_0) S1x1.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v8_1) S1x1.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S16384x768 : Shape := ⟨2, ![16384, 768]⟩
abbrev S512x768 : Shape := ⟨2, ![512, 768]⟩
abbrev S16384x512 : Shape := ⟨2, ![16384, 512]⟩
abbrev S16384 : Shape := ⟨1, ![16384]⟩
abbrev S128x768 : Shape := ⟨2, ![128, 768]⟩
abbrev S128 : Shape := ⟨1, ![128]⟩
abbrev S128x256 : Shape := ⟨2, ![128, 256]⟩
abbrev S128x128 : Shape := ⟨2, ![128, 128]⟩
abbrev S1x128 : Shape := ⟨2, ![1, 128]⟩
abbrev S1 : Shape := ⟨1, ![1]⟩
abbrev S_ : Shape := ⟨0, ![]⟩
abbrev S16384x1 : Shape := ⟨2, ![16384, 1]⟩
abbrev S768x128 : Shape := ⟨2, ![768, 128]⟩
abbrev S16384x128 : Shape := ⟨2, ![16384, 128]⟩
abbrev S16384x256 : Shape := ⟨2, ![16384, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S16384x768, .f32⟩
  | 1 => ⟨S512x768, .f32⟩
  | 2 => ⟨S16384x512, .i32⟩
  | 3 => ⟨S16384, .i32⟩
  | 4 => ⟨S128x768, .f32⟩
  | 5 => ⟨S128, .f32⟩
  | 6 => ⟨S128x768, .f32⟩
  | 7 => ⟨S128, .f32⟩
  | 8 => ⟨S128x256, .f32⟩
  | 9 => ⟨S128, .f32⟩
  | 10 => ⟨S128x128, .f32⟩
  | 11 => ⟨S128, .f32⟩
  | 12 => ⟨S1x128, .f32⟩
  | 13 => ⟨S1, .f32⟩
  | 14 => ⟨S16384x512, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S16384x768, .f32⟩
  | 22 => ⟨S16384x768, .f32⟩
  | 23 => ⟨S16384x768, .f32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S16384x768, .f32⟩
  | 33 => ⟨S768x128, .f32⟩
  | 34 => ⟨S16384x128, .f32⟩
  | 35 => ⟨S1x128, .f32⟩
  | 36 => ⟨S16384x128, .f32⟩
  | 37 => ⟨S16384x128, .f32⟩
  | 38 => ⟨S768x128, .f32⟩
  | 39 => ⟨S16384x128, .f32⟩
  | 40 => ⟨S1x128, .f32⟩
  | 41 => ⟨S16384x128, .f32⟩
  | 42 => ⟨S16384x128, .f32⟩
  | 43 => ⟨S16384x256, .f32⟩
  | 44 => ⟨S256x128, .f32⟩
  | 45 => ⟨S16384x128, .f32⟩
  | 46 => ⟨S1x128, .f32⟩
  | 47 => ⟨S16384x128, .f32⟩
  | 48 => ⟨S16384x128, .f32⟩
  | 49 => ⟨S_, .f32⟩
  | 50 => ⟨S16384x128, .f32⟩
  | 51 => ⟨S16384x128, .f32⟩
  | 52 => ⟨S128x128, .f32⟩
  | 53 => ⟨S16384x128, .f32⟩
  | 54 => ⟨S1x128, .f32⟩
  | 55 => ⟨S16384x128, .f32⟩
  | 56 => ⟨S16384x128, .f32⟩
  | 57 => ⟨S_, .f32⟩
  | 58 => ⟨S16384x128, .f32⟩
  | 59 => ⟨S16384x128, .f32⟩
  | 60 => ⟨S128x1, .f32⟩
  | 61 => ⟨S16384x1, .f32⟩
  | 62 => ⟨S1x1, .f32⟩
  | 63 => ⟨S16384x1, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S16384x1, .f32⟩
  | 70 => ⟨S16384x1, .f32⟩
  | 71 => ⟨S16384x1, .i1⟩
  | 72 => ⟨S16384x1, .f32⟩
  | 73 => ⟨S16384x1, .f32⟩
  | 74 => ⟨S16384x1, .f32⟩
  | 75 => ⟨S16384x1, .f32⟩
  | 76 => ⟨S16384x1, .f32⟩
  | 77 => ⟨S16384x1, .f32⟩
  | 78 => ⟨S16384x1, .f32⟩
  | 79 => ⟨S16384x1, .f32⟩
  | 80 => ⟨S_, .f32⟩
  | 81 => ⟨S_, .f32⟩
  | 82 => ⟨S_, .f32⟩
  | 83 => ⟨S_, .f32⟩
  | 84 => ⟨S_, .f32⟩
  | 85 => ⟨S768x128, .f32⟩
  | 86 => ⟨S16384x128, .f32⟩
  | 87 => ⟨S1x128, .f32⟩
  | 88 => ⟨S16384x128, .f32⟩
  | 89 => ⟨S16384x128, .f32⟩
  | 90 => ⟨S768x128, .f32⟩
  | 91 => ⟨S16384x128, .f32⟩
  | 92 => ⟨S1x128, .f32⟩
  | 93 => ⟨S16384x128, .f32⟩
  | 94 => ⟨S16384x128, .f32⟩
  | 95 => ⟨S16384x256, .f32⟩
  | 96 => ⟨S256x128, .f32⟩
  | 97 => ⟨S16384x128, .f32⟩
  | 98 => ⟨S1x128, .f32⟩
  | 99 => ⟨S16384x128, .f32⟩
  | 100 => ⟨S16384x128, .f32⟩
  | 101 => ⟨S_, .f32⟩
  | 102 => ⟨S16384x128, .f32⟩
  | 103 => ⟨S16384x128, .f32⟩
  | 104 => ⟨S128x128, .f32⟩
  | 105 => ⟨S16384x128, .f32⟩
  | 106 => ⟨S1x128, .f32⟩
  | 107 => ⟨S16384x128, .f32⟩
  | 108 => ⟨S16384x128, .f32⟩
  | 109 => ⟨S_, .f32⟩
  | 110 => ⟨S16384x128, .f32⟩
  | 111 => ⟨S16384x128, .f32⟩
  | 112 => ⟨S128x1, .f32⟩
  | 113 => ⟨S16384x1, .f32⟩
  | 114 => ⟨S1x1, .f32⟩
  | 115 => ⟨S16384x1, .f32⟩
  | 116 => ⟨S16384x1, .f32⟩
  | 117 => ⟨S_, .f32⟩
  | 118 => ⟨S16384x1, .f32⟩
  | 119 => ⟨S16384x1, .f32⟩
  | 120 => ⟨S16384x1, .f32⟩
  | 121 => ⟨S16384x1, .f32⟩
  | 122 => ⟨S16384x1, .i1⟩
  | 123 => ⟨S16384x1, .f32⟩
  | 124 => ⟨S16384x1, .f32⟩
  | 125 => ⟨S16384x1, .f32⟩
  | 126 => ⟨S16384x1, .f32⟩
  | 127 => ⟨S16384x1, .f32⟩
  | _ => ⟨S16384x768, .f32⟩

abbrev hbmTy0_1 (i : Nat) : BufTy := match i % 128 with
  | 0 => ⟨S16384x1, .f32⟩
  | 1 => ⟨S16384x1, .f32⟩
  | 2 => ⟨S16384x1, .f32⟩
  | 3 => ⟨S_, .f32⟩
  | 4 => ⟨S_, .f32⟩
  | 5 => ⟨S_, .f32⟩
  | 6 => ⟨S_, .f32⟩
  | 7 => ⟨S_, .f32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v44 : Ref sig .tc := ⟨.hbm, 79, rfl⟩
abbrev main_cst_2 : Ref sig .tc := ⟨.hbm, 80, rfl⟩
abbrev main_v45 : Ref sig .tc := ⟨.hbm, 81, rfl⟩
abbrev main_cst_3 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_call3_cst : Ref sig .tc := ⟨.hbm, 101, rfl⟩
abbrev main_call3_v0 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_call4_cst : Ref sig .tc := ⟨.hbm, 109, rfl⟩
abbrev main_call4_v0 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call5_cst : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_v6 : Ref sig .tc := ⟨.hbm, 124, rfl⟩
abbrev main_call5_v7 : Ref sig .tc := ⟨.hbm, 125, rfl⟩
abbrev main_call5_v8 : Ref sig .tc := ⟨.hbm, 126, rfl⟩
abbrev main_call5_v9 : Ref sig .tc := ⟨.hbm, 127, rfl⟩
abbrev main_call5_v10 : Ref sig .tc := ⟨.hbm, 128, rfl⟩
abbrev main_call5_v11 : Ref sig .tc := ⟨.hbm, 129, rfl⟩
abbrev main_v76 : Ref sig .tc := ⟨.hbm, 130, rfl⟩
abbrev main_cst_4 : Ref sig .tc := ⟨.hbm, 131, rfl⟩
abbrev main_v77 : Ref sig .tc := ⟨.hbm, 132, rfl⟩
abbrev main_cst_5 : Ref sig .tc := ⟨.hbm, 133, rfl⟩
abbrev main_v78 : Ref sig .tc := ⟨.hbm, 134, rfl⟩
abbrev main_v79 : Ref sig .tc := ⟨.hbm, 135, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x768_0_1 : S16384x1.BroadcastsInDim S16384x768 (![0, 1] : Fin 2 → Fin S16384x768.rank)
  bcast_S_S16384 : S_.BroadcastsInDim S16384 (![] : Fin 0 → Fin S16384.rank)
  transposes_S128x768_S768x128_1_0 : S128x768.Transposes [1, 0] S768x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  concatenates_S16384x128_S16384x128_S16384x256_d1 : Shape.Concatenates [S16384x128, S16384x128] S16384x256 1
  transposes_S128x256_S256x128_1_0 : S128x256.Transposes [1, 0] S256x128
  bcast_S_S16384x128 : S_.BroadcastsInDim S16384x128 (![] : Fin 0 → Fin S16384x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S_d0_1 : S16384x1.ReducesTo [0, 1] S_
  dot_S16384x512_S512x768_S16384x768_1_0_0_1_n_n_wf : DotDims.WF S16384x512 S512x768 S16384x768 [1] [0] [0] [1] [] []
  gather_S16384x768_S16384x1_S16384x768_1_0_n_n_0_1_1768_wf : GatherDims.WF S16384x768 S16384x1 S16384x768 [1] [0] [] [0] [] 1 ![1, 768]
  dot_S16384x768_S768x128_S16384x128_1_0_0_1_n_n_wf : DotDims.WF S16384x768 S768x128 S16384x128 [1] [0] [0] [1] [] []
  dot_S16384x256_S256x128_S16384x128_1_0_0_1_n_n_wf : DotDims.WF S16384x256 S256x128 S16384x128 [1] [0] [0] [1] [] []
  dot_S16384x128_S128x128_S16384x128_1_0_0_1_n_n_wf : DotDims.WF S16384x128 S128x128 S16384x128 [1] [0] [0] [1] [] []
  dot_S16384x128_S128x1_S16384x1_1_0_0_1_n_n_wf : DotDims.WF S16384x128 S128x1 S16384x1 [1] [0] [0] [1] [] []

variable [Facts₀]

def dot_S16384x512_S512x768_S16384x768_1_0_0_1_n_n : DotDims S16384x512 S512x768 S16384x768 where
  lhsContracting := [1]
  rhsContracting := [0]
  lhsNonContracting := [0]
  rhsNonContracting := [1]
  lhsBatch := []
  rhsBatch := []
  wf := dot_S16384x512_S512x768_S16384x768_1_0_0_1_n_n_wf
def gather_S16384x768_S16384x1_S16384x768_1_0_n_n_0_1_1768 : GatherDims S16384x768 S16384x1 S16384x768 where
  offsetDims := [1]
  collapsedSliceDims := [0]
  operandBatchingDims := []
  startIndicesBatchingDims := []
  startIndexMap := [0]
  indexVectorDim := 1
  sliceSizes := ![1, 768]
  wf := gather_S16384x768_S16384x1_S16384x768_1_0_n_n_0_1_1768_wf
def dot_S16384x768_S768x128_S16384x128_1_0_0_1_n_n : DotDims S16384x768 S768x128 S16384x128 where
  lhsContracting := [1]
  rhsContracting := [0]
  lhsNonContracting := [0]
  rhsNonContracting := [1]
  lhsBatch := []
  rhsBatch := []
  wf := dot_S16384x768_S768x128_S16384x128_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.KernelRun.lean ====
/-
  The kernel program's run with its result named.  The program is four segments: the feature region, the host
  lines that gather the permuted rows, the discriminator region, and the host lines that add the two accumulated
  sums and divide by the batch size.  Every weakly fair execution ends with each buffer at the contents the
  fold through those four segments gives it; in particular the result buffer ends at the fold's value there,
  and the argument arrays end as launched.
-/
import proofs.«163802_j54125177864859_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer then holds the
    value the fold through the four segments gives it, and the arguments are unchanged. -/
theorem run_named : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.RunValue

end
-- ==== Proof.HostLines.lean ====
/-
  The host lines of the kernel program read back.  Between the two regions the host picks, for every sample, the
  projected text row of the sample its permutation entry names (a negative entry counted from the end, the result
  clamped into the table by the gather); the discriminator region then finds the two projected arrays as the
  feature region left them, the picked rows, and the discriminator's weights as launched.  After the second region
  the host adds the two accumulated sums and divides by the batch size.
-/
import proofs.«163802_j54125177864859_1_alg».proof.Proof.Gen.KernelIdeal.Frame
import Idealize.ShloMosaic.Lib.StableHlo.Run
import Idealize.ShloMosaic.Lib.Tactic
import Idealize.ShloMosaic.Lib.ValueIdx
import Idealize.ShloMosaic.Lib.Pipeline.Value
import Idealize.ShloMosaic.PureOps.Ideal

set_option maxRecDepth 16384

noncomputable section

namespace Cert.KernelIdeal.HostLines

open Cert.KernelIdeal Cert.KernelIdeal.Gen
open Idealize.ShloMosaic Idealize.ShloMosaic.TcCoe Idealize.ShloMosaic.ValueIdx Idealize.ShloMosaic.Tactic Idealize.SL.Sem
open Idealize.ShloMosaic.StableHlo

variable (m : (ℓ : Loc nD τ sig) → Buf (Elt Ideal) ℓ) (ρ : Dev nD → PrngReg)

/-- The start rows the gather is given: each permutation entry, a negative one counted from the end, as a column. -/
abbrev startRows (perm : Vec Ideal S16384 .i32) : IVec S16384x1 32 :=
  broadcastInDim S16384x1 ![0] bcast_S16384_S16384x1_0
    (select (cmpi .slt perm (broadcastInDim S16384 ![] bcast_S_S16384 (constantI S_ 32 0#32)))
      (addi perm (broadcastInDim S16384 ![] bcast_S_S16384 (constantI S_ 32 16384#32))) perm)

/-- The discriminator region finds the projected text rows as the feature region left them. -/
theorem entry_text (c : Dev nD) : V2 m ρ c main_v0_0 = (dat0 (V0 m ρ) c).arrAt 7 cfg0.N := by
  show StableHlo.after hostOps1 (W1 m ρ c) (Proc.devRef .tc main_v0_0) = _
  after_results
  exact W1_arr m ρ c 7

/-- The discriminator region finds the projected label rows as the feature region left them. -/
theorem entry_label (c : Dev nD) : V2 m ρ c main_v0_1 = (dat0 (V0 m ρ) c).arrAt 8 cfg0.N := by
  show StableHlo.after hostOps1 (W1 m ρ c) (Proc.devRef .tc main_v0_1) = _
  after_results
  exact W1_arr m ρ c 8

/-- The discriminator region finds, as its marginal text rows, the gather of the projected text rows at the start rows. -/
theorem entry_gathered (c : Dev nD) :
    V2 m ρ c main_v7 = Host.gather gather_S16384x128_S16384x1_S16384x128_1_0_n_n_0_1_1128
      ((dat0 (V0 m ρ) c).arrAt 7 cfg0.N) (startRows (m ((c : Thread nD τ).loc main_arg3))) := by
  show StableHlo.after hostOps1 (W1 m ρ c) (Proc.devRef .tc main_v7) = _
  after_results
  rw [show W1 m ρ c (Proc.devRef .tc main_v0_0) = (dat0 (V0 m ρ) c).arrAt 7 cfg0.N from W1_arr m ρ c 7,
    show W1 m ρ c (Proc.devRef .tc main_arg3) = m ((c : Thread nD τ).loc main_arg3) from W1_of_ne m ρ c main_arg3 (by decide)]

/-- The discriminator region finds argument 8 as launched. -/
theorem entry_arg8 (c : Dev nD) : V2 m ρ c main_arg8 = m ((c : Thread nD τ).loc main_arg8) := by
  show StableHlo.after hostOps1 (W1 m ρ c) (Proc.devRef .tc main_arg8) = _
  after_results
  exact W1_of_ne m ρ c main_arg8 (by decide)
/-- The discriminator region finds argument 9 as launched. -/
theorem entry_arg9 (c : Dev nD) : V2 m ρ c main_arg9 = m ((c : Thread nD τ).loc main_arg9) := by
  show StableHlo.after hostOps1 (W1 m ρ c) (Proc.devRef .tc main_arg9) = _
  after_results
  exact W1_of_ne m ρ c main_arg9 (by decide)
/-- The discriminator region finds argument 10 as launched. -/
theorem entry_arg10 (c : Dev nD) : V2 m ρ c main_arg10 = m ((c : Thread nD τ).loc main_arg10) := by
  show StableHlo.after hostOps1 (W1 m ρ c) (Proc.devRef .tc main_arg10) = _
  after_results
  exact W1_of_ne m ρ c main_arg10 (by decide)
/-- The discriminator region finds argument 11 as launched. -/
theorem entry_arg11 (c : Dev nD) : V2 m ρ c main_arg11 = m ((c : Thread nD τ).loc main_arg11) := by
  show StableHlo.after hostOps1 (W1 m ρ c) (Proc.devRef .tc main_arg11) = _
  after_results
  exact W1_of_ne m ρ c main_arg11 (by decide)
/-- The discriminator region finds argument 12 as launched. -/
theorem entry_arg12 (c : Dev nD) : V2 m ρ c main_arg12 = m ((c : Thread nD τ).loc main_arg12) := by
  show StableHlo.after hostOps1 (W1 m ρ c) (Proc.devRef .tc main_arg12) = _
  after_results
  exact W1_of_ne m ρ c main_arg12 (by decide)
/-- The discriminator region finds argument 13 as launched. -/
theorem entry_arg13 (c : Dev nD) : V2 m ρ c main_arg13 = m ((c : Thread nD τ).loc main_arg13) := by
  show StableHlo.after hostOps1 (W1 m ρ c) (Proc.devRef .tc main_arg13) = _
  after_results
  exact W1_of_ne m ρ c main_arg13 (by decide)

/-- The discriminator region's first result array after the region (the joint sum). -/
abbrev jointArr (c : Dev nD) : Vec Ideal S1x1 .f32 := (dat1 (V2 m ρ) c).arrAt 9 cfg1.N
/-- The discriminator region's second result array after the region (the marginal sum). -/
abbrev margArr (c : Dev nD) : Vec Ideal S1x1 .f32 := (dat1 (V2 m ρ) c).arrAt 10 cfg1.N

/-- The program's result: the two regions' one-entry results added and divided by the batch size. -/
theorem result_value (c : Dev nD) :
    W4 m ρ c (Proc.devRef .tc main_v12) = fun _ =>
      Ideal.div ((jointArr m ρ c (ix2 (0 : Fin 1) (0 : Fin 1)) : EReal)
        + (margArr m ρ c (ix2 (0 : Fin 1) (0 : Fin 1)) : EReal)) (Ideal.ofBits .f32 0x46800000#32) := by
  show StableHlo.after hostOps2 (W3 m ρ c) (Proc.devRef .tc main_v12) = _
  after_results
  rw [show W3 m ρ c (Proc.devRef .tc main_v8_0) = (dat1 (V2 m ρ) c).arrAt 9 cfg1.N from W3_arr m ρ c 9,
    show W3 m ρ c (Proc.devRef .tc main_v8_1) = (dat1 (V2 m ρ) c).arrAt 10 cfg1.N from W3_arr m ρ c 10]
  funext i
  have hk : ∀ (j : S_.Idx), (S1x1.rowMajor (ix2 (0 : Fin 1) (0 : Fin 1))).val = (S_.rowMajor j).val := fun j => by
    have h1 : (S1x1.rowMajor (ix2 (0 : Fin 1) (0 : Fin 1))).val < 1 := (S1x1.rowMajor _).isLt
    have h2 : (S_.rowMajor j).val < 1 := (S_.rowMajor j).isLt
    omega
  show Ideal.div ((shapeCast S_ (jointArr m ρ c) shapeCasts_S1x1_S_ i : EReal)
      + (shapeCast S_ (margArr m ρ c) shapeCasts_S1x1_S_ i : EReal)) _ = _
  rw [shapeCast_apply _ shapeCasts_S1x1_S_ i (ix2 (0 : Fin 1) (0 : Fin 1)) (hk i),
    shapeCast_apply _ shapeCasts_S1x1_S_ i (ix2 (0 : Fin 1) (0 : Fin 1)) (hk i)]
  rfl

end Cert.KernelIdeal.HostLines

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.KernelProducts.lean ====
/-
  The kernels' five matrix products read at an entry.  Each is a plain product of a block of rows with a matrix,
  accumulated into zero: at the ideal instance its entry `(r, c)` is the sum over the contracted axis of the left
  operand's row `r` times the right operand's column `c`.
-/
import proofs.«163802_j54125177864859_1_alg».proof.Proof.Gen.KernelIdeal
import proofs.«163802_j54125177864859_1_alg».proof.Proof.LibSplitContraction

noncomputable section

namespace Cert.KernelIdeal.Products

open Cert.KernelIdeal Idealize.ShloMosaic Idealize.ShloMosaic.ValueIdx

/-- The product of a [1024, 512] block with a [512, 768] matrix into the zero accumulator, entry `(r, c)`: `Σ_k lhs_{r,k} · rhs_{k,c}`. -/
theorem mm_1024_512_768 {φ₁ φ₂ : FTy} (lhs : FVec Ideal S1024x512 φ₁) (rhs : FVec Ideal S512x768 φ₂) (r : Fin 1024) (c : Fin 768) :
    matmul dot_S1024x512_S512x768_S1024x768_1_0_0_1_n_n none lhs rhs (constant S1024x768 .f32 0x00000000#32) (ix2 r c) = ∑ k : Fin 512, lhs (ix2 r k) * rhs (ix2 k c) :=
  Cert.Lib.SplitContraction.matmul_zero_at dot_S1024x512_S512x768_S1024x768_1_0_0_1_n_n rfl rfl
    (fun j q => by
      unfold DotDims.lhsIdx
      rw [dif_neg (show ¬(0 : Fin S1024x512.rank) ∈ dot_S1024x512_S512x768_S1024x768_1_0_0_1_n_n.lhsBatch by decide), dif_pos (show (0 : Fin S1024x512.rank) ∈ dot_S1024x512_S512x768_S1024x768_1_0_0_1_n_n.lhsNonContracting by decide)]
      rfl)
    (fun j q => dot_S1024x512_S512x768_S1024x768_1_0_0_1_n_n.lhsIdx_val_of_single rfl j q)
    (fun j q => dot_S1024x512_S512x768_S1024x768_1_0_0_1_n_n.rhsIdx_val_of_single rfl j q)
    (fun j q => by
      unfold DotDims.rhsIdx
      rw [dif_neg (show ¬(1 : Fin S512x768.rank) ∈ dot_S1024x512_S512x768_S1024x768_1_0_0_1_n_n.rhsBatch by decide), dif_pos (show (1 : Fin S512x768.rank) ∈ dot_S1024x512_S512x768_S1024x768_1_0_0_1_n_n.rhsNonContracting by decide)]
      rfl)
    none lhs rhs r c

/-- The product of a [1024, 768] block with a [768, 128] matrix into the zero accumulator, entry `(r, c)`: `Σ_k lhs_{r,k} · rhs_{k,c}`. -/
theorem mm_1024_768_128 {φ₁ φ₂ : FTy} (lhs : FVec Ideal S1024x768 φ₁) (rhs : FVec Ideal S768x128 φ₂) (r : Fin 1024) (c : Fin 128) :
    matmul dot_S1024x768_S768x128_S1024x128_1_0_0_1_n_n none lhs rhs (constant S1024x128 .f32 0x00000000#32) (ix2 r c) = ∑ k : Fin 768, lhs (ix2 r k) * rhs (ix2 k c) :=
  Cert.Lib.SplitContraction.matmul_zero_at dot_S1024x768_S768x128_S1024x128_1_0_0_1_n_n rfl rfl
    (fun j q => by
      unfold DotDims.lhsIdx
      rw [dif_neg (show ¬(0 : Fin S1024x768.rank) ∈ dot_S1024x768_S768x128_S1024x128_1_0_0_1_n_n.lhsBatch by decide), dif_pos (show (0 : Fin S1024x768.rank) ∈ dot_S1024x768_S768x128_S1024x128_1_0_0_1_n_n.lhsNonContracting by decide)]
      rfl)
    (fun j q => dot_S1024x768_S768x128_S1024x128_1_0_0_1_n_n.lhsIdx_val_of_single rfl j q)
    (fun j q => dot_S1024x768_S768x128_S1024x128_1_0_0_1_n_n.rhsIdx_val_of_single rfl j q)
    (fun j q => by
      unfold DotDims.rhsIdx
      rw [dif_neg (show ¬(1 : Fin S768x128.rank) ∈ dot_S1024x768_S768x128_S1024x128_1_0_0_1_n_n.rhsBatch by decide), dif_pos (show (1 : Fin S768x128.rank) ∈ dot_S1024x768_S768x128_S1024x128_1_0_0_1_n_n.rhsNonContracting by decide)]
      rfl)
    none lhs rhs r c

/-- The product of a [2048, 256] block with a [256, 128] matrix into the zero accumulator, entry `(r, c)`: `Σ_k lhs_{r,k} · rhs_{k,c}`. -/
theorem mm_2048_256_128 {φ₁ φ₂ : FTy} (lhs : FVec Ideal S2048x256 φ₁) (rhs : FVec Ideal S256x128 φ₂) (r : Fin 2048) (c : Fin 128) :
    matmul dot_S2048x256_S256x128_S2048x128_1_0_0_1_n_n none lhs rhs (constant S2048x128 .f32 0x00000000#32) (ix2 r c) = ∑ k : Fin 256, lhs (ix2 r k) * rhs (ix2 k c) :=
  Cert.Lib.SplitContraction.matmul_zero_at dot_S2048x256_S256x128_S2048x128_1_0_0_1_n_n rfl rfl
    (fun j q => by
      unfold DotDims.lhsIdx
      rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
      rfl)
    (fun j q => dot_S2048x256_S256x128_S2048x128_1_0_0_1_n_n.lhsIdx_val_of_single rfl j q)
    (fun j q => dot_S2048x256_S256x128_S2048x128_1_0_0_1_n_n.rhsIdx_val_of_single rfl j q)
    (fun j q => by
      unfold DotDims.rhsIdx
      rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
      rfl)
    none lhs rhs r c

/-- The product of a [2048, 128] block with a [128, 128] matrix into the zero accumulator, entry `(r, c)`: `Σ_k lhs_{r,k} · rhs_{k,c}`. -/
theorem mm_2048_128_128 {φ₁ φ₂ : FTy} (lhs : FVec Ideal S2048x128 φ₁) (rhs : FVec Ideal S128x128 φ₂) (r : Fin 2048) (c : Fin 128) :
    matmul dot_S2048x128_S128x128_S2048x128_1_0_0_1_n_n none lhs rhs (constant S2048x128 .f32 0x00000000#32) (ix2 r c) = ∑ k : Fin 128, lhs (ix2 r k) * rhs (ix2 k c) :=
  Cert.Lib.SplitContraction.matmul_zero_at dot_S2048x128_S128x128_S2048x128_1_0_0_1_n_n rfl rfl
    (fun j q => by
      unfold DotDims.lhsIdx
      rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
      rfl)
    (fun j q => dot_S2048x128_S128x128_S2048x128_1_0_0_1_n_n.lhsIdx_val_of_single rfl j q)
    (fun j q => dot_S2048x128_S128x128_S2048x128_1_0_0_1_n_n.rhsIdx_val_of_single rfl j q)
    (fun j q => by
      unfold DotDims.rhsIdx
      rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
      rfl)
    none lhs rhs r c

/-- The product of a [2048, 128] block with a [128, 1] matrix into the zero accumulator, entry `(r, c)`: `Σ_k lhs_{r,k} · rhs_{k,c}`. -/
theorem mm_2048_128_1 {φ₁ φ₂ : FTy} (lhs : FVec Ideal S2048x128 φ₁) (rhs : FVec Ideal S128x1 φ₂) (r : Fin 2048) (c : Fin 1) :
    matmul dot_S2048x128_S128x1_S2048x1_1_0_0_1_n_n none lhs rhs (constant S2048x1 .f32 0x00000000#32) (ix2 r c) = ∑ k : Fin 128, lhs (ix2 r k) * rhs (ix2 k c) :=
  Cert.Lib.SplitContraction.matmul_zero_at dot_S2048x128_S128x1_S2048x1_1_0_0_1_n_n rfl rfl
    (fun j q => by
      unfold DotDims.lhsIdx
      rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
      rfl)
    (fun j q => dot_S2048x128_S128x1_S2048x1_1_0_0_1_n_n.lhsIdx_val_of_single rfl j q)
    (fun j q => dot_S2048x128_S128x1_S2048x1_1_0_0_1_n_n.rhsIdx_val_of_single rfl j q)
    (fun j q => by
      unfold DotDims.rhsIdx
      rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
      rfl)
    none lhs rhs r c

end Cert.KernelIdeal.Products

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Spec.lean ====
/-
  The two programs' mathematics, row by row, as plain functions on the extended reals.

  For one sample (one row of the batch):
  * an affine layer is `(Σ_k x_k · W_{c,k}) + b_c` (the weight matrices are stored output-major, so both
    programs multiply by the transposed matrix);
  * the pooled label feature is `(Σ_l mask_l · E_{l,h}) / max (Σ_l mask_l) 1`: the mean of the selected label
    embeddings, the count clamped below by one;
  * the discriminator joins the projected text row and the projected label row into one row of 256 entries and applies
    two affine layers, each followed by a maximum with zero, and one last contraction with a single weight row;
  * `softplus x` is spelt `select (x - 0 ≠ x - 0) (x + 0) (max x 0 + log1p (exp (0 - |x - 0|)))`, the spelling of
    the stable `log (1 + exp x)` in both programs (the comparison is the test for a not-a-number, which the
    extended reals do not have, and is kept as written).
  The zero and the one are kept as their binary words, the same words in both programs.
-/
import Idealize.ShloMosaic.PureOps.Ideal.Laws
import Idealize.ShloMosaic.Lib.ValueIdx

noncomputable section

namespace Cert.Spec

open Idealize.ShloMosaic

/-- The word of `+0.0`, at the ideal instance. -/
abbrev z : Ideal .f32 := Ideal.ofBits .f32 0x00000000#32
/-- The word of `1.0`, at the ideal instance. -/
abbrev one : Ideal .f32 := Ideal.ofBits .f32 0x3F800000#32

/-- One affine layer at one row, output `c`: `(Σ_k x_k · W_{c,k}) + b_c`. -/
def affine {K D : ℕ} (x : Fin K → EReal) (W : Fin D → Fin K → EReal) (b : Fin D → EReal) (c : Fin D) : EReal :=
  (∑ k : Fin K, x k * W c k) + b c

/-- The mean-pooled label feature of one row, entry `h`. -/
def pooled {L H : ℕ} (mask : Fin L → EReal) (E : Fin L → Fin H → EReal) (h : Fin H) : EReal :=
  Ideal.div (∑ l : Fin L, mask l * E l h) (max (∑ l : Fin L, mask l) one)

/-- Two rows of 128 entries joined into one of 256. -/
def joined (t l : Fin 128 → EReal) (k : Fin 256) : EReal :=
  if h : k.val < 128 then t ⟨k.val, h⟩ else l ⟨k.val - 128, by omega⟩

/-- The discriminator's score of one sample before its last bias: two affine layers under a maximum with zero,
    then the contraction with the last layer's one weight row. -/
def score0 (t l : Fin 128 → EReal) (W0 : Fin 128 → Fin 256 → EReal) (b0 : Fin 128 → EReal)
    (W1 : Fin 128 → Fin 128 → EReal) (b1 : Fin 128 → EReal) (W2 : Fin 128 → EReal) : EReal :=
  ∑ k : Fin 128, max (affine (fun j => max (affine (joined t l) W0 b0 j) z) W1 b1 k) z * W2 k

/-- The stable softplus as both programs spell it. -/
def softplus (x : Ideal .f32) : Ideal .f32 :=
  Scalar.select (FloatOps.cmpf .one (FloatOps.subf x z) (FloatOps.subf x z)) (FloatOps.addf x z)
    (FloatOps.addf (FloatOps.maximumf x z)
      (FloatOps.log1p (FloatOps.exp (FloatOps.subf z (FloatOps.absf (FloatOps.subf x z))))))

end Cert.Spec

end
-- ==== Proof.KernelRows0.lean ====
/-
  The feature kernel's two stored blocks read at an entry.  For a block of 1024 samples the kernel stores
  * the projected text rows: entry `(p, q)` is the affine layer `(Σ_k text_{p,k} · Wt_{q,k}) + bt_q`;
  * the projected pooled label rows: entry `(p, q)` is the same affine layer, with weights `Wl`, `bl`, of the
    pooled label feature of sample `p` — the mask row's product with the label embeddings divided by the clamped
    count of its ones.
  The changes of float format are the identity on the extended reals, a transposed matrix is read at the swapped
  entry, a bias row broadcast down the block is read at its column, and a lane sum is the plain sum.
-/
import proofs.«163802_j54125177864859_1_alg».proof.Proof.Gen.KernelIdeal.Skeleton
import proofs.«163802_j54125177864859_1_alg».proof.Proof.KernelProducts
import proofs.«163802_j54125177864859_1_alg».proof.Proof.LibKeepdimsColumn
import proofs.«163802_j54125177864859_1_alg».proof.Proof.LibColumnBroadcast
import proofs.«163802_j54125177864859_1_alg».proof.Proof.Spec
import Idealize.ShloMosaic.Lib.ValueLayout

noncomputable section

namespace Cert.KernelIdeal.Rows

open Cert.KernelIdeal Cert.KernelIdeal.Gen Cert.KernelIdeal.Products Idealize.ShloMosaic Idealize.ShloMosaic.ValueIdx

/-- The projected text block, entry `(p, q)`. -/
theorem text_block (x1 : Vec Ideal S1024x768 .f32) (x3 : Vec Ideal S128x768 .f32) (x4 : Vec Ideal S128 .f32)
    (p : Fin 1024) (q : Fin 128) :
    k0_pay1 (F := Ideal) x1 x3 x4 (ix2 p q)
      = Spec.affine (fun k => x1 (ix2 p k)) (fun c k => x3 (ix2 c k)) (fun c => x4 (ix1 c)) q := by
  unfold k0_pay1 Spec.affine
  dsimp only
  refine congrArg₂ (· + ·) ?_ ?_
  · refine (mm_1024_768_128 _ _ p q).trans (Finset.sum_congr rfl fun k _ => congrArg₂ (· * ·) rfl ?_)
    exact transpose_ix2_apply _ _ k q
  · exact (broadcastTo_1b_ab_apply _ _ p q).trans (shapeCast_a_1a_apply x4 _ 0 q)

/-- The projected pooled-label block, entry `(p, q)`. -/
theorem label_block (x0 : Vec Ideal S1024x512 .i32) (x2 : Vec Ideal S512x768 .f32) (x5 : Vec Ideal S128x768 .f32)
    (x6 : Vec Ideal S128 .f32) (p : Fin 1024) (q : Fin 128) :
    k0_pay2 (F := Ideal) x0 x2 x5 x6 (ix2 p q)
      = Spec.affine (Spec.pooled (fun l => FloatOps.sitofp (F := Ideal) .f32 (x0 (ix2 p l))) (fun l h => x2 (ix2 l h)))
          (fun c h => x5 (ix2 c h)) (fun c => x6 (ix1 c)) q := by
  unfold k0_pay2 Spec.affine
  dsimp only
  refine congrArg₂ (· + ·) ?_ ?_
  · refine (mm_1024_768_128 _ _ p q).trans (Finset.sum_congr rfl fun h _ => congrArg₂ (· * ·) ?_ ?_)
    · unfold Spec.pooled
      refine congrArg₂ Ideal.div ?_ ?_
      · exact mm_1024_512_768 _ _ p h
      · refine (broadcastTo_a1_ab_apply _ _ p h).trans ?_
        refine congrArg₂ max ?_ rfl
        refine (Cert.LibKeepdims.shapeCast_a_a1_apply _ _ p 0).trans ?_
        refine (Ideal.multiReduction_add_single _ _ _ _ _ (ix1 p)).trans ?_
        exact Finset.sum_congr rfl fun l _ => congrArg (fun i => FloatOps.sitofp (F := Ideal) .f32 (x0 i))
          (funext fun a => Fin.ext (by match a with | ⟨0, _⟩ => rfl | ⟨1, _⟩ => rfl))
    · exact transpose_ix2_apply _ _ h q
  · exact (broadcastTo_1b_ab_apply _ _ p q).trans (shapeCast_a_1a_apply x6 _ 0 q)

end Cert.KernelIdeal.Rows

end
-- ==== Proof.SpecArrays.lean ====
/-
  The two programs' mathematics on whole arrays, index by index: the projected text rows and the projected
  pooled-label rows of all 16384 samples, rows of an array picked by a selection of sample numbers, each sample's
  discriminator score, the two sums over the batch, and the final value.
-/
import proofs.«163802_j54125177864859_1_alg».proof.Proof.Spec

noncomputable section

namespace Cert.Spec

open Idealize.ShloMosaic Idealize.ShloMosaic.ValueIdx

/-- The index set of an `[a, b]` array, and of an `[a]` array. -/
abbrev Mat (a b : ℕ) : Type := (⟨2, ![a, b]⟩ : Shape).Idx
abbrev Row (a : ℕ) : Type := (⟨1, ![a]⟩ : Shape).Idx

/-- The projected text rows: `(Σ_k text_{r,k} · Wt_{q,k}) + bt_q` at `(r, q)`. -/
def projText (text : Mat 16384 768 → EReal) (Wt : Mat 128 768 → EReal) (bt : Row 128 → EReal) : Mat 16384 128 → EReal :=
  fun i => affine (fun k : Fin 768 => text (ix2 (i 0 : Fin 16384) k)) (fun (c : Fin 128) (k : Fin 768) => Wt (ix2 c k))
    (fun c : Fin 128 => bt (ix1 c)) (i 1 : Fin 128)

/-- The projected pooled-label rows: the affine layer of each sample's mean-pooled label feature. -/
def projLabel (target : Mat 16384 512 → BitVec 32) (E : Mat 512 768 → EReal) (Wl : Mat 128 768 → EReal)
    (bl : Row 128 → EReal) : Mat 16384 128 → EReal :=
  fun i => affine
    (pooled (fun l : Fin 512 => FloatOps.sitofp (F := Ideal) .f32 (target (ix2 (i 0 : Fin 16384) l)))
      (fun (l : Fin 512) (h : Fin 768) => E (ix2 l h)))
    (fun (c : Fin 128) (h : Fin 768) => Wl (ix2 c h)) (fun c : Fin 128 => bl (ix1 c)) (i 1 : Fin 128)

/-- Rows of an array picked by a selection of sample numbers: row `r` of the result is row `sel r`. -/
def pickRows (x : Mat 16384 128 → EReal) (sel : Fin 16384 → Fin 16384) : Mat 16384 128 → EReal :=
  fun i => x (ix2 (sel (i 0 : Fin 16384)) (i 1 : Fin 128))

/-- Sample `r`'s discriminator score, last bias included. -/
def scoreAt (tt ll : Mat 16384 128 → EReal) (W0 : Mat 128 256 → EReal) (b0 : Row 128 → EReal)
    (W1 : Mat 128 128 → EReal) (b1 : Row 128 → EReal) (W2 : Mat 1 128 → EReal) (b2 : Row 1 → EReal)
    (r : Fin 16384) : EReal :=
  score0 (fun j => tt (ix2 r j)) (fun j => ll (ix2 r j)) (fun c k => W0 (ix2 c k)) (fun c => b0 (ix1 c))
      (fun c k => W1 (ix2 c k)) (fun c => b1 (ix1 c)) (fun k => W2 (ix2 (0 : Fin 1) k))
    + b2 (ix1 (0 : Fin 1))

end Cert.Spec

end
-- ==== Proof.Features.lean ====
/-
  What the feature region leaves in its two result arrays.  The region walks the batch in 16 blocks of 1024
  samples; at block `t` it reads rows `1024 t … 1024 t + 1023` of the targets and of the text embeddings and the
  whole of the label embeddings and of the two projections' weights, and writes rows `1024 t …` of its two results.
  Since every stored entry depends only on its own sample's rows, the results are one function of the arrays the
  region found, index by index: the projected text rows and the projected pooled-label rows of ALL samples.  The
  blocks are disjoint and cover the arrays, so after the last block each result array holds that function.
-/
import proofs.«163802_j54125177864859_1_alg».proof.Proof.Gen.KernelIdeal.Frame
import proofs.«163802_j54125177864859_1_alg».proof.Proof.KernelRows0
import proofs.«163802_j54125177864859_1_alg».proof.Proof.SpecArrays
import Idealize.ShloMosaic.Lib.Pipeline.Value

set_option maxRecDepth 16384

noncomputable section

namespace Cert.KernelIdeal.Features

open Cert.KernelIdeal Cert.KernelIdeal.Gen Cert.KernelIdeal.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window's block sits at point `t`: the row-blocked windows at block row `t`, the resident ones at
    the origin — decided over the grid. -/
theorem block_places : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- What point `t` writes back to the first result is block `t` of the projected text rows. -/
theorem flushed_text (c : Dev nD) (t : Fin cfg0.N) :
    (dat0 V c).flushed 7 t = ((cfg0.win 7).blk t).view.read (Elt Ideal)
      (Spec.projText (V c main_arg0) (V c main_arg4) (V c main_arg5)) := by
  show (cfg0.win 7).cut (grid0.coords t) ((dat0 V c).after 7 t) = _
  rw [after0_7]
  unfold out0_7
  rw [View.canon_unit_zero hz2]
  simp only [View.ld_unit_zero (S := S1024x768) hz2, View.ld_unit_zero (S := S128x768) hz2, View.ld_unit_zero (S := S128) hz1]
  obtain ⟨e00, e01, e10, e11, e20, e21, e30, e31, e40, e50, e51, e60, e70, e71, e80, e81⟩ := block_places t
  funext j
  obtain ⟨p, q, rfl⟩ : ∃ (p : Fin 1024) (q : Fin 128), j = ix2 p q := ⟨j 0, j 1, eq_ix2 j⟩
  refine (text_block _ _ _ p q).trans ?_
  unfold Spec.projText Spec.affine
  refine congrArg₂ (· + ·) (Finset.sum_congr rfl fun k _ => congrArg₂ (· * ·) ?_ ?_) ?_
  · show V c main_arg0 (((cfg0.win 1).blk t).view.emb (ix2 p k)) = V c main_arg0 _
    refine congrArg (V c main_arg0) (funext fun a => Fin.ext ?_)
    match a with
    | ⟨0, _⟩ => show win0_1.index t (0 : Fin 2) * 1024 + 1 * p.val = win0_7.index t (0 : Fin 2) * 1024 + 1 * p.val; omega
    | ⟨1, _⟩ => show win0_1.index t (1 : Fin 2) * 768 + 1 * k.val = k.val; omega
  · show V c main_arg4 (((cfg0.win 3).blk t).view.emb (ix2 q k)) = V c main_arg4 _
    refine congrArg (V c main_arg4) (funext fun a => Fin.ext ?_)
    match a with
    | ⟨0, _⟩ => show win0_3.index t (0 : Fin 2) * 128 + 1 * q.val = win0_7.index t (1 : Fin 2) * 128 + 1 * q.val; omega
    | ⟨1, _⟩ => show win0_3.index t (1 : Fin 2) * 768 + 1 * k.val = k.val; omega
  · show V c main_arg5 (((cfg0.win 4).blk t).view.emb (ix1 q)) = V c main_arg5 _
    refine congrArg (V c main_arg5) (funext fun a => Fin.ext ?_)
    match a with
    | ⟨0, _⟩ => show win0_4.index t (0 : Fin 1) * 128 + 1 * q.val = win0_7.index t (1 : Fin 2) * 128 + 1 * q.val; omega

/-- What point `t` writes back to the second result is block `t` of the projected pooled-label rows. -/
theorem flushed_label (c : Dev nD) (t : Fin cfg0.N) :
    (dat0 V c).flushed 8 t = ((cfg0.win 8).blk t).view.read (Elt Ideal)
      (Spec.projLabel (V c main_arg2) (V c main_arg1) (V c main_arg6) (V c main_arg7)) := by
  show (cfg0.win 8).cut (grid0.coords t) ((dat0 V c).after 8 t) = _
  rw [after0_8]
  unfold out0_8
  rw [View.canon_unit_zero hz2]
  simp only [View.ld_unit_zero (S := S1024x512) hz2, View.ld_unit_zero (S := S512x768) hz2, View.ld_unit_zero (S := S128x768) hz2, View.ld_unit_zero (S := S128) hz1]
  obtain ⟨e00, e01, e10, e11, e20, e21, e30, e31, e40, e50, e51, e60, e70, e71, e80, e81⟩ := block_places t
  funext j
  obtain ⟨p, q, rfl⟩ : ∃ (p : Fin 1024) (q : Fin 128), j = ix2 p q := ⟨j 0, j 1, eq_ix2 j⟩
  refine (label_block _ _ _ _ p q).trans ?_
  unfold Spec.projLabel Spec.affine Spec.pooled
  have hrow : ∀ l : Fin 512, iblk0 V c 0 t (ix2 p l)
      = V c main_arg2 (ix2 ((((cfg0.win 8).blk t).view.emb (ix2 p q)) 0 : Fin 16384) l) := fun l => by
    show V c main_arg2 (((cfg0.win 0).blk t).view.emb (ix2 p l)) = V c main_arg2 _
    refine congrArg (V c main_arg2) (funext fun a => Fin.ext ?_)
    match a with
    | ⟨0, _⟩ => show win0_0.index t (0 : Fin 2) * 1024 + 1 * p.val = win0_8.index t (0 : Fin 2) * 1024 + 1 * p.val; omega
    | ⟨1, _⟩ => show win0_0.index t (1 : Fin 2) * 512 + 1 * l.val = l.val; omega
  refine congrArg₂ (· + ·) (Finset.sum_congr rfl fun h _ => congrArg₂ (· * ·) ?_ ?_) ?_
  · refine congrArg₂ Ideal.div (Finset.sum_congr rfl fun l _ => congrArg₂ (· * ·) ?_ ?_)
      (congrArg₂ max (Finset.sum_congr rfl fun l _ => ?_) rfl)
    · exact congrArg (FloatOps.sitofp (F := Ideal) .f32) (hrow l)
    · show V c main_arg1 (((cfg0.win 2).blk t).view.emb (ix2 l h)) = V c main_arg1 _
      refine congrArg (V c main_arg1) (funext fun a => Fin.ext ?_)
      match a with
      | ⟨0, _⟩ => show win0_2.index t (0 : Fin 2) * 512 + 1 * l.val = l.val; omega
      | ⟨1, _⟩ => show win0_2.index t (1 : Fin 2) * 768 + 1 * h.val = h.val; omega
    · exact congrArg (FloatOps.sitofp (F := Ideal) .f32) (hrow l)
  · show V c main_arg6 (((cfg0.win 5).blk t).view.emb (ix2 q h)) = V c main_arg6 _
    refine congrArg (V c main_arg6) (funext fun a => Fin.ext ?_)
    match a with
    | ⟨0, _⟩ => show win0_5.index t (0 : Fin 2) * 128 + 1 * q.val = win0_8.index t (1 : Fin 2) * 128 + 1 * q.val; omega
    | ⟨1, _⟩ => show win0_5.index t (1 : Fin 2) * 768 + 1 * h.val = h.val; omega
  · show V c main_arg7 (((cfg0.win 6).blk t).view.emb (ix1 q)) = V c main_arg7 _
    refine congrArg (V c main_arg7) (funext fun a => Fin.ext ?_)
    match a with
    | ⟨0, _⟩ => show win0_6.index t (0 : Fin 1) * 128 + 1 * q.val = win0_8.index t (1 : Fin 2) * 128 + 1 * q.val; omega

/-- Every index of the first result lies in the block of the point that handles its row. -/
theorem cover_text (i : S16384x128.Idx) :
    ∃ t : Fin cfg0.N, (cfg0.win 7).flush t = true ∧ i ∈ ((cfg0.win 7).blk t).view.set := by
  have hN : cfg0.N = 16 := N_0
  have h0 : (i 0).val < 16384 := (i 0).isLt
  have h1 : (i 1).val < 128 := (i 1).isLt
  obtain ⟨t, ht⟩ : ∃ t : Fin cfg0.N, t.val = (i 0).val / 1024 := ⟨⟨(i 0).val / 1024, by rw [hN]; omega⟩, rfl⟩
  obtain ⟨e00, e01, e10, e11, e20, e21, e30, e31, e40, e50, e51, e60, e70, e71, e80, e81⟩ := block_places t
  refine ⟨t, flush0_7 t, ?_⟩
  show i ∈ ((View.whole main_v0_0).slice (win0_7.rect t)).set
  rw [View.set_slice_whole, Rect.mem_set_unit]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 128 ≤ (i 1).val ∧ (i 1).val < win0_7.index t (1 : Fin 2) * 128 + 128; omega

/-- Every index of the second result lies in the block of the point that handles its row. -/
theorem cover_label (i : S16384x128.Idx) :
    ∃ t : Fin cfg0.N, (cfg0.win 8).flush t = true ∧ i ∈ ((cfg0.win 8).blk t).view.set := by
  have hN : cfg0.N = 16 := N_0
  have h0 : (i 0).val < 16384 := (i 0).isLt
  have h1 : (i 1).val < 128 := (i 1).isLt
  obtain ⟨t, ht⟩ : ∃ t : Fin cfg0.N, t.val = (i 0).val / 1024 := ⟨⟨(i 0).val / 1024, by rw [hN]; omega⟩, rfl⟩
  obtain ⟨e00, e01, e10, e11, e20, e21, e30, e31, e40, e50, e51, e60, e70, e71, e80, e81⟩ := block_places t
  refine ⟨t, flush0_8 t, ?_⟩
  show i ∈ ((View.whole main_v0_1).slice (win0_8.rect t)).set
  rw [View.set_slice_whole, Rect.mem_set_unit]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 128 ≤ (i 1).val ∧ (i 1).val < win0_8.index t (1 : Fin 2) * 128 + 128; omega

/-- After the region the first result array holds the projected text rows of the arrays the region found. -/
theorem final_text (c : Dev nD) :
    (dat0 V c).arrAt 7 cfg0.N = Spec.projText (V c main_arg0) (V c main_arg4) (V c main_arg5) :=
  (dat0 V c).arrAt_eq_of_cover 7 _ (fun t _ => flushed_text V c t) cover_text

/-- After the region the second result array holds the projected pooled-label rows. -/
theorem final_label (c : Dev nD) :
    (dat0 V c).arrAt 8 cfg0.N = Spec.projLabel (V c main_arg2) (V c main_arg1) (V c main_arg6) (V c main_arg7) :=
  (dat0 V c).arrAt_eq_of_cover 8 _ (fun t _ => flushed_label V c t) cover_label

end Cert.KernelIdeal.Features

end
-- ==== Proof.KernelRows1.lean ====
/-
  The discriminator kernel's values read at an entry.  For a block of 2048 samples the kernel computes, sample by
  sample, the score of the joined row (projected text row, projected label row): two affine layers under a maximum
  with zero and a last contraction with one weight row, to which the last bias is added.  It then adds to each of
  its two running sums the sum over the block of the softplus of the negated joint score, and of the marginal
  score.  A joined block is read in its first or second half, a transposed weight matrix at the swapped entry, a
  bias row at its column, and a sum down the block's one column is the plain sum over its rows.
-/
import proofs.«163802_j54125177864859_1_alg».proof.Proof.Gen.KernelIdeal.Skeleton
import proofs.«163802_j54125177864859_1_alg».proof.Proof.KernelProducts
import proofs.«163802_j54125177864859_1_alg».proof.Proof.Spec
import Idealize.ShloMosaic.Lib.ValueLayout
import Idealize.ShloMosaic.Lib.Pipeline.Value

noncomputable section

namespace Cert.KernelIdeal.Rows

open Cert.KernelIdeal Cert.KernelIdeal.Gen Cert.KernelIdeal.Products Idealize.ShloMosaic Idealize.ShloMosaic.ValueIdx

/-- Two blocks of 128 columns joined along the columns, read at `(r, k)`: the first block's entry below column 128,
    the second's from there on. -/
theorem joined_block (a b : FVec Ideal S2048x128 .f32) (r : Fin 2048) (k : Fin 256) :
    concatenate S2048x256 1 [⟨S2048x128, a⟩, ⟨S2048x128, b⟩] concatenates_S2048x128_S2048x128_S2048x256_d1 (ix2 r k)
      = Spec.joined (fun j => a (ix2 r j)) (fun j => b (ix2 r j)) k := by
  unfold Spec.joined
  by_cases h : k.val < 128
  · rw [dif_pos h]
    exact concatenate_pair_apply_left 1 a b _ (ix2 r k) rfl (ix2 r (⟨k.val, h⟩ : Fin 128))
      (fun b' => match b' with | ⟨0, _⟩ => rfl | ⟨1, _⟩ => rfl)
  · rw [dif_neg h]
    exact concatenate_pair_apply_right 1 a b _ (ix2 r k) rfl rfl (ix2 r (⟨k.val - 128, by omega⟩ : Fin 128))
      (fun b' hb => match b' with | ⟨0, _⟩ => rfl | ⟨1, _⟩ => absurd rfl hb)
      (by show (k.val - 128) + 128 = k.val; omega)

/-- The joint branch's score before its last bias, sample `r` of the block. -/
theorem joint_score (ll : Vec Ideal S2048x128 .f32) (w0 : Vec Ideal S128x256 .f32) (w1 : Vec Ideal S128x128 .f32)
    (w2 : Vec Ideal S1x128 .f32) (b0 b1 : Vec Ideal S128 .f32) (tt : Vec Ideal S2048x128 .f32) (r : Fin 2048) :
    k1_pay8 (F := Ideal) ll w0 w1 w2 b0 b1 tt (ix2 r (0 : Fin 1))
      = Spec.score0 (fun j => tt (ix2 r j)) (fun j => ll (ix2 r j)) (fun c k => w0 (ix2 c k)) (fun c => b0 (ix1 c))
          (fun c k => w1 (ix2 c k)) (fun c => b1 (ix1 c)) (fun k => w2 (ix2 (0 : Fin 1) k)) := by
  unfold k1_pay8 Spec.score0 Spec.affine
  dsimp only
  refine (mm_2048_128_1 _ _ r 0).trans (Finset.sum_congr rfl fun k _ => congrArg₂ (· * ·) ?_ ?_)
  · refine congrArg₂ max ?_ rfl
    refine congrArg₂ (· + ·) ?_ ?_
    · refine (mm_2048_128_128 _ _ r k).trans (Finset.sum_congr rfl fun j _ => congrArg₂ (· * ·) ?_ ?_)
      · refine congrArg₂ max ?_ rfl
        refine congrArg₂ (· + ·) ?_ ?_
        · refine (mm_2048_256_128 _ _ r j).trans (Finset.sum_congr rfl fun i _ => congrArg₂ (· * ·) ?_ ?_)
          · exact (joined_block _ _ r i).trans (by unfold k1_pay4; rw [shapeCast_self, shapeCast_self])
          · exact transpose_ix2_apply _ _ i j
        · exact (broadcastTo_1b_ab_apply _ _ r j).trans (shapeCast_a_1a_apply b0 _ 0 j)
      · exact transpose_ix2_apply _ _ j k
    · exact (broadcastTo_1b_ab_apply _ _ r k).trans (shapeCast_a_1a_apply b1 _ 0 k)
  · exact transpose_ix2_apply _ _ k 0

/-- The last bias spread down the block's one column. -/
theorem last_bias (b2 : Vec Ideal S1 .f32) (r : Fin 2048) :
    k1_pay9 (F := Ideal) b2 (ix2 r (0 : Fin 1)) = b2 (ix1 (0 : Fin 1)) := by
  unfold k1_pay9
  exact (broadcastTo_1b_ab_apply _ _ r 0).trans (shapeCast_a_1a_apply b2 _ 0 0)

/-- The marginal branch's score, last bias included, sample `r` of the block. -/
theorem marginal_score (ll : FVec Ideal S2048x128 .f32) (w0 : FVec Ideal S128x256 .bf16) (w1 : FVec Ideal S128x128 .bf16)
    (w2 : FVec Ideal S1x128 .bf16) (b0 b1 : Vec Ideal S128 .f32) (b2 : Vec Ideal S1 .f32)
    (tt : Vec Ideal S2048x128 .f32) (r : Fin 2048) :
    k1_pay10 (F := Ideal) ll w0 w1 w2 b0 b1 b2 tt (ix2 r (0 : Fin 1))
      = Spec.score0 (fun j => tt (ix2 r j)) (fun j => ll (ix2 r j)) (fun c k => w0 (ix2 c k)) (fun c => b0 (ix1 c))
          (fun c k => w1 (ix2 c k)) (fun c => b1 (ix1 c)) (fun k => w2 (ix2 (0 : Fin 1) k)) + b2 (ix1 (0 : Fin 1)) := by
  unfold k1_pay10 Spec.score0 Spec.affine
  dsimp only
  refine congrArg₂ (· + ·) ?_ ((broadcastTo_1b_ab_apply _ _ r 0).trans (shapeCast_a_1a_apply b2 _ 0 0))
  refine (mm_2048_128_1 _ _ r 0).trans (Finset.sum_congr rfl fun k _ => congrArg₂ (· * ·) ?_ ?_)
  · refine congrArg₂ max ?_ rfl
    refine congrArg₂ (· + ·) ?_ ?_
    · refine (mm_2048_128_128 _ _ r k).trans (Finset.sum_congr rfl fun j _ => congrArg₂ (· * ·) ?_ ?_)
      · refine congrArg₂ max ?_ rfl
        refine congrArg₂ (· + ·) ?_ ?_
        · refine (mm_2048_256_128 _ _ r j).trans (Finset.sum_congr rfl fun i _ => congrArg₂ (· * ·) ?_ ?_)
          · exact (joined_block _ _ r i).trans (by rw [shapeCast_self])
          · exact transpose_ix2_apply _ _ i j
        · exact (broadcastTo_1b_ab_apply _ _ r j).trans (shapeCast_a_1a_apply b0 _ 0 j)
      · exact transpose_ix2_apply _ _ j k
    · exact (broadcastTo_1b_ab_apply _ _ r k).trans (shapeCast_a_1a_apply b1 _ 0 k)
  · exact transpose_ix2_apply _ _ k 0

/-- The row of the block's one column that a sum down the column visits at place `r`. -/
theorem column_place (r : Fin 2048) :
    reduces_S2048x1_S1.lift (ix1 (0 : Fin 1)) r = ix2 r (0 : Fin 1) :=
  funext fun a => Fin.ext (by match a with | ⟨0, _⟩ => rfl | ⟨1, _⟩ => rfl)

/-- The joint running sum after a block: what it held plus the block's sum of `softplus (0 - (score + bias))`. -/
theorem joint_step (s b : FVec Ideal S2048x1 .f32) (acc : Vec Ideal S1x1 .f32) :
    k1_pay11 (F := Ideal) s b acc (ix2 (0 : Fin 1) (0 : Fin 1))
      = acc (ix2 (0 : Fin 1) (0 : Fin 1))
        + ∑ r : Fin 2048, Spec.softplus (FloatOps.subf Spec.z (FloatOps.addf (s (ix2 r (0 : Fin 1))) (b (ix2 r (0 : Fin 1))))) := by
  unfold k1_pay11
  dsimp only
  refine congrArg₂ (· + ·) (congrFun (shapeCast_self acc _) _) ?_
  refine (shapeCast_a_1a_apply _ _ 0 0).trans ?_
  refine (Ideal.multiReduction_add_single _ _ _ _ _ (ix1 (0 : Fin 1))).trans ?_
  refine Finset.sum_congr rfl fun r _ => ?_
  rw [column_place r]
  rfl

/-- The marginal running sum after a block: what it held plus the block's sum of `softplus score`. -/
theorem marginal_step (s : FVec Ideal S2048x1 .f32) (acc : Vec Ideal S1x1 .f32) :
    k1_pay1 (F := Ideal) s acc (ix2 (0 : Fin 1) (0 : Fin 1))
      = acc (ix2 (0 : Fin 1) (0 : Fin 1)) + ∑ r : Fin 2048, Spec.softplus (s (ix2 r (0 : Fin 1))) := by
  unfold k1_pay1
  dsimp only
  refine congrArg₂ (· + ·) (congrFun (shapeCast_self acc _) _) ?_
  refine (shapeCast_a_1a_apply _ _ 0 0).trans ?_
  refine (Ideal.multiReduction_add_single _ _ _ _ _ (ix1 (0 : Fin 1))).trans ?_
  refine Finset.sum_congr rfl fun r _ => ?_
  rw [column_place r]
  rfl

end Cert.KernelIdeal.Rows

end
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.Discriminator.lean ====
/-
  What the discriminator region leaves in its two one-entry result arrays.  The region walks the batch in 8 blocks
  of 2048 samples and keeps its two results in place between the blocks: at the first block it stores zero in both,
  and at every block it adds to the first the block's sum of `softplus (0 - score)` over the joint rows and to the
  second the block's sum of `softplus score` over the marginal rows.  So after block `n` each result holds zero plus
  the sums of the blocks `0 … n`, added in that order; the two results are written back once, after the last block.
-/
import proofs.«163802_j54125177864859_1_alg».proof.Proof.Gen.KernelIdeal.Frame
import proofs.«163802_j54125177864859_1_alg».proof.Proof.KernelRows1
import proofs.«163802_j54125177864859_1_alg».proof.Proof.SpecArrays
import proofs.«163802_j54125177864859_1_alg».proof.Proof.LibSumRuns
import Idealize.ShloMosaic.Lib.Pipeline.Value
import Idealize.ShloMosaic.Lib.Tactic

set_option maxRecDepth 16384

noncomputable section

namespace Cert.KernelIdeal.Discriminator

open Cert.KernelIdeal Cert.KernelIdeal.Gen Cert.KernelIdeal.Rows
open Idealize.ShloMosaic Idealize.ShloMosaic.TcCoe Idealize.ShloMosaic.ValueIdx Idealize.ShloMosaic.Tactic Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-! ## What one run of the body leaves in each result's buffer -/

/-- A later block: the first result's buffer, holding `xo9`, ends at `xo9` plus the block's joint sum. -/
theorem out_B9 (c : Dev nD) (i : grid1.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S128x256 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S1x128 .f32) (h8 : a8.IsWhole) (a9 : Memref sig .tc .vmem S1 .f32) (h9 : a9.IsWhole) (a10 : Memref sig .tc .vmem S1x1 .f32) (h10 : a10.IsWhole) (a11 : Memref sig .tc .vmem S1x1 .f32) (h11 : a11.IsWhole) (hc : ¬cond1_0 i)
    (x0 : Vec Ideal S2048x128 .f32) (x1 : Vec Ideal S2048x128 .f32) (x2 : Vec Ideal S2048x128 .f32) (x3 : Vec Ideal S128x256 .f32) (x4 : Vec Ideal S128 .f32) (x5 : Vec Ideal S128x128 .f32) (x6 : Vec Ideal S128 .f32) (x7 : Vec Ideal S1x128 .f32) (x8 : Vec Ideal S1 .f32) (xo9 xo10 : Vec Ideal S1x1 .f32) :
    out1_B_9 (F := Ideal) c i a1 h1 a2 h2 a3 h3 a4 h4 a5 h5 a6 h6 a7 h7 a8 h8 a9 h9 a10 h10 a11 h11 hc x0 x1 x2 x3 x4 x5 x6 x7 x8 xo9 xo10 = k1_pay11 (k1_pay8 x2 x3 x5 x7 x4 x6 x0) (k1_pay9 x8) xo9 := by
  unfold out1_B_9
  rw [View.read_writes_eq_canon _ _ _ (cover1_B_9 c i a1 h1 a2 h2 a3 h3 a4 h4 a5 h5 a6 h6 a7 h7 a8 h8 a9 h9 a10 h10 a11 h11 hc x0 x1 x2 x3 x4 x5 x6 x7 x8 xo9 xo10)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, View.ld_unit_zero (S := S2048x128) hz2, View.ld_unit_zero (S := S128x256) hz2, View.ld_unit_zero (S := S128x128) hz2, View.ld_unit_zero (S := S1x128) hz2, View.ld_unit_zero (S := S1x1) hz2, View.ld_unit_zero (S := S128) hz1, View.ld_unit_zero (S := S1) hz1]

/-- A later block: the second result's buffer, holding `xo10`, ends at `xo10` plus the block's marginal sum. -/
theorem out_B10 (c : Dev nD) (i : grid1.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S128x256 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S1x128 .f32) (h8 : a8.IsWhole) (a9 : Memref sig .tc .vmem S1 .f32) (h9 : a9.IsWhole) (a10 : Memref sig .tc .vmem S1x1 .f32) (h10 : a10.IsWhole) (a11 : Memref sig .tc .vmem S1x1 .f32) (h11 : a11.IsWhole) (hc : ¬cond1_0 i)
    (x0 : Vec Ideal S2048x128 .f32) (x1 : Vec Ideal S2048x128 .f32) (x2 : Vec Ideal S2048x128 .f32) (x3 : Vec Ideal S128x256 .f32) (x4 : Vec Ideal S128 .f32) (x5 : Vec Ideal S128x128 .f32) (x6 : Vec Ideal S128 .f32) (x7 : Vec Ideal S1x128 .f32) (x8 : Vec Ideal S1 .f32) (xo9 xo10 : Vec Ideal S1x1 .f32) :
    out1_B_10 (F := Ideal) c i a1 h1 a2 h2 a3 h3 a4 h4 a5 h5 a6 h6 a7 h7 a8 h8 a9 h9 a10 h10 a11 h11 hc x0 x1 x2 x3 x4 x5 x6 x7 x8 xo9 xo10 = k1_pay1 (k1_pay10 (k1_pay4 x2) (k1_pay5 x3) (k1_pay6 x5) (k1_pay7 x7) x4 x6 x8 x1) xo10 := by
  unfold out1_B_10
  rw [View.read_writes_eq_canon _ _ _ (cover1_B_10 c i a1 h1 a2 h2 a3 h3 a4 h4 a5 h5 a6 h6 a7 h7 a8 h8 a9 h9 a10 h10 a11 h11 hc x0 x1 x2 x3 x4 x5 x6 x7 x8 xo9 xo10)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, View.ld_unit_zero (S := S2048x128) hz2, View.ld_unit_zero (S := S128x256) hz2, View.ld_unit_zero (S := S128x128) hz2, View.ld_unit_zero (S := S1x128) hz2, View.ld_unit_zero (S := S1x1) hz2, View.ld_unit_zero (S := S128) hz1, View.ld_unit_zero (S := S1) hz1]

/-- The first block: the first result's buffer is set to zero, read back, and ends at zero plus the block's joint sum. -/
theorem out_A9 (c : Dev nD) (i : grid1.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S128x256 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S1x128 .f32) (h8 : a8.IsWhole) (a9 : Memref sig .tc .vmem S1 .f32) (h9 : a9.IsWhole) (a10 : Memref sig .tc .vmem S1x1 .f32) (h10 : a10.IsWhole) (a11 : Memref sig .tc .vmem S1x1 .f32) (h11 : a11.IsWhole) (hc : cond1_0 i)
    (x0 : Vec Ideal S2048x128 .f32) (x1 : Vec Ideal S2048x128 .f32) (x2 : Vec Ideal S2048x128 .f32) (x3 : Vec Ideal S128x256 .f32) (x4 : Vec Ideal S128 .f32) (x5 : Vec Ideal S128x128 .f32) (x6 : Vec Ideal S128 .f32) (x7 : Vec Ideal S1x128 .f32) (x8 : Vec Ideal S1 .f32) :
    out1_A_9 (F := Ideal) c i a1 h1 a2 h2 a3 h3 a4 h4 a5 h5 a6 h6 a7 h7 a8 h8 a9 h9 a10 h10 a11 h11 hc x0 x1 x2 x3 x4 x5 x6 x7 x8 = k1_pay11 (k1_pay8 x2 x3 x5 x7 x4 x6 x0) (k1_pay9 x8) (k1_pay2 (F := Ideal)) := by
  unfold out1_A_9
  rw [View.read_writes_eq_canon _ _ _ (cover1_A_9 c i a1 h1 a2 h2 a3 h3 a4 h4 a5 h5 a6 h6 a7 h7 a8 h8 a9 h9 a10 h10 a11 h11 hc x0 x1 x2 x3 x4 x5 x6 x7 x8)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread, h7.read_unread, h8.read_unread, h9.read_unread, h10.read_unread, h11.read_unread, View.ld_unit_zero (S := S2048x128) hz2, View.ld_unit_zero (S := S128x256) hz2, View.ld_unit_zero (S := S128x128) hz2, View.ld_unit_zero (S := S1x128) hz2, View.ld_unit_zero (S := S1x1) hz2, View.ld_unit_zero (S := S128) hz1, View.ld_unit_zero (S := S1) hz1]

/-- The first block: the second result's buffer ends at zero plus the block's marginal sum. -/
theorem out_A10 (c : Dev nD) (i : grid1.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S128x256 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S1x128 .f32) (h8 : a8.IsWhole) (a9 : Memref sig .tc .vmem S1 .f32) (h9 : a9.IsWhole) (a10 : Memref sig .tc .vmem S1x1 .f32) (h10 : a10.IsWhole) (a11 : Memref sig .tc .vmem S1x1 .f32) (h11 : a11.IsWhole) (hc : cond1_0 i)
    (x0 : Vec Ideal S2048x128 .f32) (x1 : Vec Ideal S2048x128 .f32) (x2 : Vec Ideal S2048x128 .f32) (x3 : Vec Ideal S128x256 .f32) (x4 : Vec Ideal S128 .f32) (x5 : Vec Ideal S128x128 .f32) (x6 : Vec Ideal S128 .f32) (x7 : Vec Ideal S1x128 .f32) (x8 : Vec Ideal S1 .f32) :
    out1_A_10 (F := Ideal) c i a1 h1 a2 h2 a3 h3 a4 h4 a5 h5 a6 h6 a7 h7 a8 h8 a9 h9 a10 h10 a11 h11 hc x0 x1 x2 x3 x4 x5 x6 x7 x8 = k1_pay1 (k1_pay10 (k1_pay4 x2) (k1_pay5 x3) (k1_pay6 x5) (k1_pay7 x7) x4 x6 x8 x1) (k1_pay3 (F := Ideal)) := by
  unfold out1_A_10
  rw [View.read_writes_eq_canon _ _ _ (cover1_A_10 c i a1 h1 a2 h2 a3 h3 a4 h4 a5 h5 a6 h6 a7 h7 a8 h8 a9 h9 a10 h10 a11 h11 hc x0 x1 x2 x3 x4 x5 x6 x7 x8)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread, h7.read_unread, h8.read_unread, h9.read_unread, h10.read_unread, h11.read_unread, View.ld_unit_zero (S := S2048x128) hz2, View.ld_unit_zero (S := S128x256) hz2, View.ld_unit_zero (S := S128x128) hz2, View.ld_unit_zero (S := S1x128) hz2, View.ld_unit_zero (S := S1x1) hz2, View.ld_unit_zero (S := S128) hz1, View.ld_unit_zero (S := S1) hz1]

/-! ## The running results, block after block -/

variable (V : (c : Dev nD) → (b : Ref sig .tc) → Buf (Elt Ideal) ((c : Thread nD τ).loc b))

/-- The two results after block `n`: zero plus the first block's sums, then each later block's sums added. -/
def chain (c : Dev nD) : (n : ℕ) → n < cfg1.N → Vec Ideal S1x1 .f32 × Vec Ideal S1x1 .f32
  | 0, h => (k1_pay11 (k1_pay8 (iblk1 V c 2 ⟨0, h⟩) (iblk1 V c 3 ⟨0, h⟩) (iblk1 V c 5 ⟨0, h⟩) (iblk1 V c 7 ⟨0, h⟩) (iblk1 V c 4 ⟨0, h⟩) (iblk1 V c 6 ⟨0, h⟩) (iblk1 V c 0 ⟨0, h⟩)) (k1_pay9 (iblk1 V c 8 ⟨0, h⟩)) (k1_pay2 (F := Ideal)),
      k1_pay1 (k1_pay10 (k1_pay4 (iblk1 V c 2 ⟨0, h⟩)) (k1_pay5 (iblk1 V c 3 ⟨0, h⟩)) (k1_pay6 (iblk1 V c 5 ⟨0, h⟩)) (k1_pay7 (iblk1 V c 7 ⟨0, h⟩)) (iblk1 V c 4 ⟨0, h⟩) (iblk1 V c 6 ⟨0, h⟩) (iblk1 V c 8 ⟨0, h⟩) (iblk1 V c 1 ⟨0, h⟩)) (k1_pay3 (F := Ideal)))
  | n + 1, h => (k1_pay11 (k1_pay8 (iblk1 V c 2 ⟨n + 1, h⟩) (iblk1 V c 3 ⟨n + 1, h⟩) (iblk1 V c 5 ⟨n + 1, h⟩) (iblk1 V c 7 ⟨n + 1, h⟩) (iblk1 V c 4 ⟨n + 1, h⟩) (iblk1 V c 6 ⟨n + 1, h⟩) (iblk1 V c 0 ⟨n + 1, h⟩)) (k1_pay9 (iblk1 V c 8 ⟨n + 1, h⟩)) (chain c n (Nat.lt_of_succ_lt h)).1,
      k1_pay1 (k1_pay10 (k1_pay4 (iblk1 V c 2 ⟨n + 1, h⟩)) (k1_pay5 (iblk1 V c 3 ⟨n + 1, h⟩)) (k1_pay6 (iblk1 V c 5 ⟨n + 1, h⟩)) (k1_pay7 (iblk1 V c 7 ⟨n + 1, h⟩)) (iblk1 V c 4 ⟨n + 1, h⟩) (iblk1 V c 6 ⟨n + 1, h⟩) (iblk1 V c 8 ⟨n + 1, h⟩) (iblk1 V c 1 ⟨n + 1, h⟩)) (chain c n (Nat.lt_of_succ_lt h)).2)

/-- What the results' buffers hold after point `n` is that chain — by induction on the point. -/
theorem outsAt_eq (c : Dev nD) : ∀ (n : ℕ) (h : n < cfg1.N), outsAt1 V c n h = chain V c n h
  | 0, h => (outsAt1_A V c ⟨0, h⟩ rfl).trans (Prod.ext
      (out_A9 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩))
      (out_A10 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩)))
  | n + 1, h => by
    have hN : cfg1.N = 8 := N_1
    have hB : ¬(⟨n + 1, h⟩ : Fin cfg1.N).val % 8 = 0 := by dsimp only; omega
    rw [outsAt1_B V c ⟨n + 1, h⟩ hB, out_B9, out_B10]
    show (k1_pay11 (k1_pay8 (iblk1 V c 2 ⟨n + 1, h⟩) (iblk1 V c 3 ⟨n + 1, h⟩) (iblk1 V c 5 ⟨n + 1, h⟩) (iblk1 V c 7 ⟨n + 1, h⟩) (iblk1 V c 4 ⟨n + 1, h⟩) (iblk1 V c 6 ⟨n + 1, h⟩) (iblk1 V c 0 ⟨n + 1, h⟩)) (k1_pay9 (iblk1 V c 8 ⟨n + 1, h⟩)) (outsAt1 V c n _).1, k1_pay1 (k1_pay10 (k1_pay4 (iblk1 V c 2 ⟨n + 1, h⟩)) (k1_pay5 (iblk1 V c 3 ⟨n + 1, h⟩)) (k1_pay6 (iblk1 V c 5 ⟨n + 1, h⟩)) (k1_pay7 (iblk1 V c 7 ⟨n + 1, h⟩)) (iblk1 V c 4 ⟨n + 1, h⟩) (iblk1 V c 6 ⟨n + 1, h⟩) (iblk1 V c 8 ⟨n + 1, h⟩) (iblk1 V c 1 ⟨n + 1, h⟩)) (outsAt1 V c n _).2)
      = (k1_pay11 (k1_pay8 (iblk1 V c 2 ⟨n + 1, h⟩) (iblk1 V c 3 ⟨n + 1, h⟩) (iblk1 V c 5 ⟨n + 1, h⟩) (iblk1 V c 7 ⟨n + 1, h⟩) (iblk1 V c 4 ⟨n + 1, h⟩) (iblk1 V c 6 ⟨n + 1, h⟩) (iblk1 V c 0 ⟨n + 1, h⟩)) (k1_pay9 (iblk1 V c 8 ⟨n + 1, h⟩)) (chain V c n _).1, k1_pay1 (k1_pay10 (k1_pay4 (iblk1 V c 2 ⟨n + 1, h⟩)) (k1_pay5 (iblk1 V c 3 ⟨n + 1, h⟩)) (k1_pay6 (iblk1 V c 5 ⟨n + 1, h⟩)) (k1_pay7 (iblk1 V c 7 ⟨n + 1, h⟩)) (iblk1 V c 4 ⟨n + 1, h⟩) (iblk1 V c 6 ⟨n + 1, h⟩) (iblk1 V c 8 ⟨n + 1, h⟩) (iblk1 V c 1 ⟨n + 1, h⟩)) (chain V c n _).2)
    rw [outsAt_eq c n]

/-! ## The sums in closed form -/

/-- Block `s`'s sum of the joint softplus terms (zero past the last block). -/
def jointTile (c : Dev nD) (s : ℕ) : EReal :=
  if h : s < cfg1.N then
    ∑ r : Fin 2048, Spec.softplus (FloatOps.subf Spec.z (FloatOps.addf (k1_pay8 (iblk1 V c 2 ⟨s, h⟩) (iblk1 V c 3 ⟨s, h⟩) (iblk1 V c 5 ⟨s, h⟩) (iblk1 V c 7 ⟨s, h⟩) (iblk1 V c 4 ⟨s, h⟩) (iblk1 V c 6 ⟨s, h⟩) (iblk1 V c 0 ⟨s, h⟩) (ix2 r (0 : Fin 1))) (k1_pay9 (iblk1 V c 8 ⟨s, h⟩) (ix2 r (0 : Fin 1)))))
  else 0

/-- Block `s`'s sum of the marginal softplus terms (zero past the last block). -/
def margTile (c : Dev nD) (s : ℕ) : EReal :=
  if h : s < cfg1.N then ∑ r : Fin 2048, Spec.softplus (k1_pay10 (k1_pay4 (iblk1 V c 2 ⟨s, h⟩)) (k1_pay5 (iblk1 V c 3 ⟨s, h⟩)) (k1_pay6 (iblk1 V c 5 ⟨s, h⟩)) (k1_pay7 (iblk1 V c 7 ⟨s, h⟩)) (iblk1 V c 4 ⟨s, h⟩) (iblk1 V c 6 ⟨s, h⟩) (iblk1 V c 8 ⟨s, h⟩) (iblk1 V c 1 ⟨s, h⟩) (ix2 r (0 : Fin 1))) else 0

/-- After block `n` the first result is zero plus the joint sums of the blocks `0 … n`. -/
theorem chain_joint (c : Dev nD) : ∀ (n : ℕ) (h : n < cfg1.N),
    ((chain V c n h).1 (ix2 (0 : Fin 1) (0 : Fin 1)) : EReal) = Spec.z + ∑ s ∈ Finset.range (n + 1), jointTile V c s
  | 0, h => by
    rw [Finset.sum_range_one]
    refine (joint_step _ _ _).trans ?_
    unfold jointTile
    rw [dif_pos h]
    rfl
  | n + 1, h => by
    rw [Finset.sum_range_succ, ← add_assoc, ← chain_joint c n (Nat.lt_of_succ_lt h)]
    refine (joint_step _ _ _).trans ?_
    unfold jointTile
    rw [dif_pos h]

/-- After block `n` the second result is zero plus the marginal sums of the blocks `0 … n`. -/
theorem chain_marg (c : Dev nD) : ∀ (n : ℕ) (h : n < cfg1.N),
    ((chain V c n h).2 (ix2 (0 : Fin 1) (0 : Fin 1)) : EReal) = Spec.z + ∑ s ∈ Finset.range (n + 1), margTile V c s
  | 0, h => by
    rw [Finset.sum_range_one]
    refine (marginal_step _ _).trans ?_
    unfold margTile
    rw [dif_pos h]
    rfl
  | n + 1, h => by
    rw [Finset.sum_range_succ, ← add_assoc, ← chain_marg c n (Nat.lt_of_succ_lt h)]
    refine (marginal_step _ _).trans ?_
    unfold margTile
    rw [dif_pos h]

/-! ## The blocks read off the arrays the region found -/

/-- Where each window's block sits at point `t`: the three row-blocked windows at block row `t`, every other window
    at the origin — decided over the grid. -/
theorem block_places : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-- Row `r` of block `t` of the projected text rows is row `2048 t + r` of the array. -/
theorem rows_text (c : Dev nD) (t : Fin cfg1.N) (r : Fin 2048) (R : Fin 16384) (hR : R.val = t.val * 2048 + r.val) :
    (fun j : Fin 128 => iblk1 V c 0 t (ix2 r j)) = fun j => V c main_v0_0 (ix2 R j) := by
  obtain ⟨e00, e01, e10, e11, e20, e21, e30, e31, e40, e50, e51, e60, e70, e71, e80, e90, e91, ea0, ea1⟩ := block_places t
  funext j
  show V c main_v0_0 (((cfg1.win 0).blk t).view.emb (ix2 r j)) = V c main_v0_0 _
  refine congrArg (V c main_v0_0) (funext fun a => Fin.ext ?_)
  match a with
  | ⟨0, _⟩ => show win1_0.index t (0 : Fin 2) * 2048 + 1 * r.val = R.val; omega
  | ⟨1, _⟩ => show win1_0.index t (1 : Fin 2) * 128 + 1 * j.val = j.val; omega

/-- Row `r` of block `t` of the marginal text rows is row `2048 t + r` of the array. -/
theorem rows_marg (c : Dev nD) (t : Fin cfg1.N) (r : Fin 2048) (R : Fin 16384) (hR : R.val = t.val * 2048 + r.val) :
    (fun j : Fin 128 => iblk1 V c 1 t (ix2 r j)) = fun j => V c main_v7 (ix2 R j) := by
  obtain ⟨e00, e01, e10, e11, e20, e21, e30, e31, e40, e50, e51, e60, e70, e71, e80, e90, e91, ea0, ea1⟩ := block_places t
  funext j
  show V c main_v7 (((cfg1.win 1).blk t).view.emb (ix2 r j)) = V c main_v7 _
  refine congrArg (V c main_v7) (funext fun a => Fin.ext ?_)
  match a with
  | ⟨0, _⟩ => show win1_1.index t (0 : Fin 2) * 2048 + 1 * r.val = R.val; omega
  | ⟨1, _⟩ => show win1_1.index t (1 : Fin 2) * 128 + 1 * j.val = j.val; omega

/-- Row `r` of block `t` of the projected label rows is row `2048 t + r` of the array. -/
theorem rows_label (c : Dev nD) (t : Fin cfg1.N) (r : Fin 2048) (R : Fin 16384) (hR : R.val = t.val * 2048 + r.val) :
    (fun j : Fin 128 => iblk1 V c 2 t (ix2 r j)) = fun j => V c main_v0_1 (ix2 R j) := by
  obtain ⟨e00, e01, e10, e11, e20, e21, e30, e31, e40, e50, e51, e60, e70, e71, e80, e90, e91, ea0, ea1⟩ := block_places t
  funext j
  show V c main_v0_1 (((cfg1.win 2).blk t).view.emb (ix2 r j)) = V c main_v0_1 _
  refine congrArg (V c main_v0_1) (funext fun a => Fin.ext ?_)
  match a with
  | ⟨0, _⟩ => show win1_2.index t (0 : Fin 2) * 2048 + 1 * r.val = R.val; omega
  | ⟨1, _⟩ => show win1_2.index t (1 : Fin 2) * 128 + 1 * j.val = j.val; omega

/-- The first layer's weights are resident: the block is the array. -/
theorem whole_w0 (c : Dev nD) (t : Fin cfg1.N) :
    (fun (a : Fin 128) (b : Fin 256) => iblk1 V c 3 t (ix2 a b)) = fun a b => V c main_arg8 (ix2 a b) := by
  obtain ⟨e00, e01, e10, e11, e20, e21, e30, e31, e40, e50, e51, e60, e70, e71, e80, e90, e91, ea0, ea1⟩ := block_places t
  funext a b
  show V c main_arg8 (((cfg1.win 3).blk t).view.emb (ix2 a b)) = V c main_arg8 _
  refine congrArg (V c main_arg8) (funext fun d => Fin.ext ?_)
  match d with
  | ⟨0, _⟩ => show win1_3.index t (0 : Fin 2) * 128 + 1 * a.val = a.val; omega
  | ⟨1, _⟩ => show win1_3.index t (1 : Fin 2) * 256 + 1 * b.val = b.val; omega

/-- The first layer's bias is resident. -/
theorem whole_b0 (c : Dev nD) (t : Fin cfg1.N) :
    (fun (a : Fin 128) => iblk1 V c 4 t (ix1 a)) = fun a => V c main_arg9 (ix1 a) := by
  obtain ⟨e00, e01, e10, e11, e20, e21, e30, e31, e40, e50, e51, e60, e70, e71, e80, e90, e91, ea0, ea1⟩ := block_places t
  funext a
  show V c main_arg9 (((cfg1.win 4).blk t).view.emb (ix1 a)) = V c main_arg9 _
  refine congrArg (V c main_arg9) (funext fun d => Fin.ext ?_)
  match d with
  | ⟨0, _⟩ => show win1_4.index t (0 : Fin 1) * 128 + 1 * a.val = a.val; omega

/-- The second layer's weights are resident. -/
theorem whole_w1 (c : Dev nD) (t : Fin cfg1.N) :
    (fun (a : Fin 128) (b : Fin 128) => iblk1 V c 5 t (ix2 a b)) = fun a b => V c main_arg10 (ix2 a b) := by
  obtain ⟨e00, e01, e10, e11, e20, e21, e30, e31, e40, e50, e51, e60, e70, e71, e80, e90, e91, ea0, ea1⟩ := block_places t
  funext a b
  show V c main_arg10 (((cfg1.win 5).blk t).view.emb (ix2 a b)) = V c main_arg10 _
  refine congrArg (V c main_arg10) (funext fun d => Fin.ext ?_)
  match d with
  | ⟨0, _⟩ => show win1_5.index t (0 : Fin 2) * 128 + 1 * a.val = a.val; omega
  | ⟨1, _⟩ => show win1_5.index t (1 : Fin 2) * 128 + 1 * b.val = b.val; omega

/-- The second layer's bias is resident. -/
theorem whole_b1 (c : Dev nD) (t : Fin cfg1.N) :
    (fun (a : Fin 128) => iblk1 V c 6 t (ix1 a)) = fun a => V c main_arg11 (ix1 a) := by
  obtain ⟨e00, e01, e10, e11, e20, e21, e30, e31, e40, e50, e51, e60, e70, e71, e80, e90, e91, ea0, ea1⟩ := block_places t
  funext a
  show V c main_arg11 (((cfg1.win 6).blk t).view.emb (ix1 a)) = V c main_arg11 _
  refine congrArg (V c main_arg11) (funext fun d => Fin.ext ?_)
  match d with
  | ⟨0, _⟩ => show win1_6.index t (0 : Fin 1) * 128 + 1 * a.val = a.val; omega

/-- The last layer's one weight row is resident. -/
theorem whole_w2 (c : Dev nD) (t : Fin cfg1.N) :
    (fun (b : Fin 128) => iblk1 V c 7 t (ix2 (0 : Fin 1) b)) = fun b => V c main_arg12 (ix2 (0 : Fin 1) b) := by
  obtain ⟨e00, e01, e10, e11, e20, e21, e30, e31, e40, e50, e51, e60, e70, e71, e80, e90, e91, ea0, ea1⟩ := block_places t
  funext b
  show V c main_arg12 (((cfg1.win 7).blk t).view.emb (ix2 (0 : Fin 1) b)) = V c main_arg12 _
  refine congrArg (V c main_arg12) (funext fun d => Fin.ext ?_)
  match d with
  | ⟨0, _⟩ => show win1_7.index t (0 : Fin 2) * 1 + 1 * 0 = 0; omega
  | ⟨1, _⟩ => show win1_7.index t (1 : Fin 2) * 128 + 1 * b.val = b.val; omega
/-- The last bias is resident. -/
theorem whole_b2 (c : Dev nD) (t : Fin cfg1.N) :
    iblk1 V c 8 t (ix1 (0 : Fin 1)) = V c main_arg13 (ix1 (0 : Fin 1)) := by
  obtain ⟨e00, e01, e10, e11, e20, e21, e30, e31, e40, e50, e51, e60, e70, e71, e80, e90, e91, ea0, ea1⟩ := block_places t
  show V c main_arg13 (((cfg1.win 8).blk t).view.emb (ix1 (0 : Fin 1))) = V c main_arg13 _
  refine congrArg (V c main_arg13) (funext fun d => Fin.ext ?_)
  match d with
  | ⟨0, _⟩ => show win1_8.index t (0 : Fin 1) * 1 + 1 * 0 = 0; omega

/-- Block `s`'s joint sum is the sum over its 2048 samples of `softplus (0 - score)`, the scores those of the whole
    arrays' rows `2048 s + r`. -/
theorem jointTile_eq (c : Dev nD) (s : ℕ) (hs : s < 8) :
    jointTile V c s = ∑ r : Fin 2048, Spec.softplus (Spec.z - Spec.scoreAt (V c main_v0_0) (V c main_v0_1) (V c main_arg8) (V c main_arg9) (V c main_arg10) (V c main_arg11) (V c main_arg12) (V c main_arg13)
      (⟨s * 2048 + r.val, by have := r.isLt; omega⟩ : Fin 16384)) := by
  have hN : cfg1.N = 8 := N_1
  have h : s < cfg1.N := by rw [hN]; exact hs
  unfold jointTile
  rw [dif_pos h]
  refine Finset.sum_congr rfl fun r _ => congrArg Spec.softplus (congrArg (Spec.z - ·) ?_)
  unfold Spec.scoreAt
  refine congrArg₂ (· + ·) ((joint_score _ _ _ _ _ _ _ r).trans ?_) ((last_bias _ r).trans (whole_b2 V c ⟨s, h⟩))
  rw [rows_text V c ⟨s, h⟩ r ⟨s * 2048 + r.val, by have := r.isLt; omega⟩ rfl,
    rows_label V c ⟨s, h⟩ r ⟨s * 2048 + r.val, by have := r.isLt; omega⟩ rfl,
    whole_w0 V c ⟨s, h⟩, whole_b0 V c ⟨s, h⟩, whole_w1 V c ⟨s, h⟩, whole_b1 V c ⟨s, h⟩, whole_w2 V c ⟨s, h⟩]

/-- Block `s`'s marginal sum is the sum over its 2048 samples of `softplus score`, the text rows the marginal ones. -/
theorem margTile_eq (c : Dev nD) (s : ℕ) (hs : s < 8) :
    margTile V c s = ∑ r : Fin 2048, Spec.softplus (Spec.scoreAt (V c main_v7) (V c main_v0_1) (V c main_arg8) (V c main_arg9) (V c main_arg10) (V c main_arg11) (V c main_arg12) (V c main_arg13)
      (⟨s * 2048 + r.val, by have := r.isLt; omega⟩ : Fin 16384)) := by
  have hN : cfg1.N = 8 := N_1
  have h : s < cfg1.N := by rw [hN]; exact hs
  unfold margTile
  rw [dif_pos h]
  refine Finset.sum_congr rfl fun r _ => congrArg Spec.softplus ?_
  unfold Spec.scoreAt
  refine (marginal_score _ _ _ _ _ _ _ _ r).trans (congrArg₂ (· + ·) ?_ (whole_b2 V c ⟨s, h⟩))
  unfold k1_pay4 k1_pay5 k1_pay6 k1_pay7
  rw [shapeCast_self]
  show Spec.score0 (fun j => iblk1 V c 1 ⟨s, h⟩ (ix2 r j)) (fun j => iblk1 V c 2 ⟨s, h⟩ (ix2 r j))
      (fun a b => iblk1 V c 3 ⟨s, h⟩ (ix2 a b)) (fun a => iblk1 V c 4 ⟨s, h⟩ (ix1 a))
      (fun a b => iblk1 V c 5 ⟨s, h⟩ (ix2 a b)) (fun a => iblk1 V c 6 ⟨s, h⟩ (ix1 a))
      (fun b => iblk1 V c 7 ⟨s, h⟩ (ix2 (0 : Fin 1) b)) = _
  rw [rows_marg V c ⟨s, h⟩ r ⟨s * 2048 + r.val, by have := r.isLt; omega⟩ rfl,
    rows_label V c ⟨s, h⟩ r ⟨s * 2048 + r.val, by have := r.isLt; omega⟩ rfl,
    whole_w0 V c ⟨s, h⟩, whole_b0 V c ⟨s, h⟩, whole_w1 V c ⟨s, h⟩, whole_b1 V c ⟨s, h⟩, whole_w2 V c ⟨s, h⟩]

/-- Eight block sums, block `s` the sum over its 2048 consecutive samples, add up to the sum over the batch. -/
theorem blocks_total (f : ℕ → EReal) (g : Fin 16384 → EReal)
    (hf : ∀ (s : ℕ) (hs : s < 8), f s = ∑ r : Fin 2048, g ⟨s * 2048 + r.val, by have := r.isLt; omega⟩) :
    ∑ s ∈ Finset.range 8, f s = ∑ R : Fin 16384, g R := by
  rw [Finset.sum_range]
  have hruns := Cert.Lib.SumRuns.sum_runs (M := EReal) 8 2048 (fun k : Fin (8 * 2048) => g ⟨k.val, by have := k.isLt; omega⟩)
  calc ∑ s : Fin 8, f s.val
      = ∑ s : Fin 8, ∑ r : Fin 2048, g ⟨s.val * 2048 + r.val, by have := r.isLt; have := s.isLt; omega⟩ :=
        Finset.sum_congr rfl fun s _ => hf s.val s.isLt
    _ = ∑ k : Fin (8 * 2048), g ⟨k.val, by have := k.isLt; omega⟩ := hruns.symm
    _ = ∑ R : Fin 16384, g R := Fintype.sum_equiv (finCongr (by norm_num)) _ _ (fun k => rfl)

/-! ## The result arrays -/

/-- The last point of the grid. -/
abbrev lastPoint : Fin cfg1.N := ⟨7, by rw [show cfg1.N = 8 from N_1]; decide⟩

/-- The one write-back of the joint result, after the last block, writes the chain's last value. -/
theorem flushed_joint (c : Dev nD) (t : Fin cfg1.N) (hf : (cfg1.win 9).flush t = true) :
    (dat1 V c).flushed 9 t = ((cfg1.win 9).blk t).view.read (Elt Ideal) (chain V c 7 lastPoint.isLt).1 := by
  have hN : cfg1.N = 8 := N_1
  have h7 : t.val = 7 := by have := (flush1_9 t).mp hf; have := t.isLt; omega
  obtain rfl : t = lastPoint := Fin.ext h7
  show (cfg1.win 9).cut (grid1.coords lastPoint) ((dat1 V c).after 9 lastPoint) = _
  rw [after1_9, outsAt_eq]
  have hz' : (fun a => win1_9.index lastPoint a * main_v8_0.ty.shape.size a) = fun _ => 0 := funext fun a => by fin_cases a <;> decide +kernel
  exact (Memref.read_access_unit_zero (Elt Ideal) main_v8_0 hz' (fun a => by rw [congrFun hz' a]; simp) (chain V c 7 lastPoint.isLt).1).symm

/-- So the joint result array ends holding the chain's last value. -/
theorem final_joint (c : Dev nD) : (dat1 V c).arrAt 9 cfg1.N = (chain V c 7 lastPoint.isLt).1 :=
  (dat1 V c).arrAt_eq_of_cover 9 _ (flushed_joint V c) fun i =>
    ⟨lastPoint, (flush1_9 lastPoint).mpr rfl, by
      show i ∈ ((View.whole main_v8_0).slice (win1_9.rect lastPoint)).set
      rw [View.set_slice_whole, Rect.mem_set_unit]
      intro a
      have h0 : (i 0 : Nat) < 1 := (i 0).isLt
      have h1 : (i 1 : Nat) < 1 := (i 1).isLt
      match a with
      | ⟨0, _⟩ => show win1_9.index lastPoint 0 * win1_9.size 0 ≤ (i 0 : Nat) ∧ (i 0 : Nat) < win1_9.index lastPoint 0 * win1_9.size 0 + win1_9.xsize (grid1.coords lastPoint) 0
                  rw [show win1_9.index lastPoint 0 * win1_9.size 0 = 0 from by decide +kernel, show win1_9.xsize (grid1.coords lastPoint) 0 = 1 from by decide +kernel]; omega
      | ⟨1, _⟩ => show win1_9.index lastPoint 1 * win1_9.size 1 ≤ (i 1 : Nat) ∧ (i 1 : Nat) < win1_9.index lastPoint 1 * win1_9.size 1 + win1_9.xsize (grid1.coords lastPoint) 1
                  rw [show win1_9.index lastPoint 1 * win1_9.size 1 = 0 from by decide +kernel, show win1_9.xsize (grid1.coords lastPoint) 1 = 1 from by decide +kernel]; omega⟩

/-- The one write-back of the marg result, after the last block, writes the chain's last value. -/
theorem flushed_marg (c : Dev nD) (t : Fin cfg1.N) (hf : (cfg1.win 10).flush t = true) :
    (dat1 V c).flushed 10 t = ((cfg1.win 10).blk t).view.read (Elt Ideal) (chain V c 7 lastPoint.isLt).2 := by
  have hN : cfg1.N = 8 := N_1
  have h7 : t.val = 7 := by have := (flush1_10 t).mp hf; have := t.isLt; omega
  obtain rfl : t = lastPoint := Fin.ext h7
  show (cfg1.win 10).cut (grid1.coords lastPoint) ((dat1 V c).after 10 lastPoint) = _
  rw [after1_10, outsAt_eq]
  have hz' : (fun a => win1_10.index lastPoint a * main_v8_1.ty.shape.size a) = fun _ => 0 := funext fun a => by fin_cases a <;> decide +kernel
  exact (Memref.read_access_unit_zero (Elt Ideal) main_v8_1 hz' (fun a => by rw [congrFun hz' a]; simp) (chain V c 7 lastPoint.isLt).2).symm

/-- So the marg result array ends holding the chain's last value. -/
theorem final_marg (c : Dev nD) : (dat1 V c).arrAt 10 cfg1.N = (chain V c 7 lastPoint.isLt).2 :=
  (dat1 V c).arrAt_eq_of_cover 10 _ (flushed_marg V c) fun i =>
    ⟨lastPoint, (flush1_10 lastPoint).mpr rfl, by
      show i ∈ ((View.whole main_v8_1).slice (win1_10.rect lastPoint)).set
      rw [View.set_slice_whole, Rect.mem_set_unit]
      intro a
      have h0 : (i 0 : Nat) < 1 := (i 0).isLt
      have h1 : (i 1 : Nat) < 1 := (i 1).isLt
      match a with
      | ⟨0, _⟩ => show win1_10.index lastPoint 0 * win1_10.size 0 ≤ (i 0 : Nat) ∧ (i 0 : Nat) < win1_10.index lastPoint 0 * win1_10.size 0 + win1_10.xsize (grid1.coords lastPoint) 0
                  rw [show win1_10.index lastPoint 0 * win1_10.size 0 = 0 from by decide +kernel, show win1_10.xsize (grid1.coords lastPoint) 0 = 1 from by decide +kernel]; omega
      | ⟨1, _⟩ => show win1_10.index lastPoint 1 * win1_10.size 1 ≤ (i 1 : Nat) ∧ (i 1 : Nat) < win1_10.index lastPoint 1 * win1_10.size 1 + win1_10.xsize (grid1.coords lastPoint) 1
                  rw [show win1_10.index lastPoint 1 * win1_10.size 1 = 0 from by decide +kernel, show win1_10.xsize (grid1.coords lastPoint) 1 = 1 from by decide +kernel]; omega⟩

/-- The first result: zero plus the sum over the whole batch of `softplus (0 - score)`, the scores from the joint rows. -/
theorem joint_value (c : Dev nD) :
    (((dat1 V c).arrAt 9 cfg1.N : Vec Ideal S1x1 .f32) (ix2 (0 : Fin 1) (0 : Fin 1)) : EReal)
      = Spec.z + ∑ R : Fin 16384, Spec.softplus (Spec.z - Spec.scoreAt (V c main_v0_0) (V c main_v0_1) (V c main_arg8) (V c main_arg9) (V c main_arg10) (V c main_arg11) (V c main_arg12) (V c main_arg13) R) := by
  rw [final_joint V c, chain_joint V c 7 lastPoint.isLt]
  exact congrArg (Spec.z + ·) (blocks_total _ _ (jointTile_eq V c))

/-- The second result: zero plus the sum over the whole batch of `softplus score`, the scores from the marginal rows. -/
theorem marg_value (c : Dev nD) :
    (((dat1 V c).arrAt 10 cfg1.N : Vec Ideal S1x1 .f32) (ix2 (0 : Fin 1) (0 : Fin 1)) : EReal)
      = Spec.z + ∑ R : Fin 16384, Spec.softplus (Spec.scoreAt (V c main_v7) (V c main_v0_1) (V c main_arg8) (V c main_arg9) (V c main_arg10) (V c main_arg11) (V c main_arg12) (V c main_arg13) R) := by
  rw [final_marg V c, chain_marg V c 7 lastPoint.isLt]
  exact congrArg (Spec.z + ·) (blocks_total _ _ (margTile_eq V c))

end Cert.KernelIdeal.Discriminator

end
-- ==== Proof.MeanLaws.lean ====
/-
  The scalar laws that join the two programs' last lines.  The kernel adds its two accumulated sums and divides
  the total by the batch size; the reference divides each sum by the batch size, negates the first mean, and
  subtracts it from the second.  On the extended reals a division by a positive real is a product with a positive
  real, which distributes over every sum (infinite terms included), and subtracting a negation is adding: so the
  two spellings agree for all values of the two sums, finite or not.
-/
import Idealize.ShloMosaic.PureOps.Ideal.Laws

noncomputable section

namespace Cert.MeanLaws

open Idealize.ShloMosaic

/-- The batch size `16384.0` denotes the real number 16384. -/
theorem ofBits_batch : Ideal.ofBits .f32 0x46800000#32 = ((16384 : ℝ) : EReal) := by
  simp [Ideal.ofBits, Ideal.ieee, -EReal.coe_mul]; norm_num

/-- `(j + m) / B = m / B - (-(j / B))` for every pair of extended reals, `B` the batch size. -/
theorem mean_split (j m : EReal) :
    Ideal.div (j + m) (Ideal.ofBits .f32 0x46800000#32)
      = Ideal.div m (Ideal.ofBits .f32 0x46800000#32) - -(Ideal.div j (Ideal.ofBits .f32 0x46800000#32)) := by
  rw [ofBits_batch, Ideal.div_coe (by norm_num : (16384 : ℝ) ≠ 0), Ideal.div_coe (by norm_num : (16384 : ℝ) ≠ 0),
    Ideal.div_coe (by norm_num : (16384 : ℝ) ≠ 0), sub_eq_add_neg, neg_neg]
  have h0 : (0 : EReal) ≤ ((1 / 16384 : ℝ) : EReal) := by
    exact_mod_cast (by norm_num : (0 : ℝ) ≤ 1 / 16384)
  rw [EReal.right_distrib_of_nonneg_of_ne_top h0 (EReal.coe_ne_top _), add_comm]

/-- Subtracting from zero is negating. -/
theorem zero_sub' (x : EReal) : Ideal.ofBits .f32 0x00000000#32 - x = -x := by
  rw [Ideal.ofBits_zero_f32, zero_sub]

end Cert.MeanLaws

end
-- ==== Proof.LibRowGather.lean ====
/-
  A row gather read at an index: what `x[idx]` of a table `x : [N, D]` at a column of row numbers `idx : [E, 1]` is, and
  the same of a table with a unit middle axis `x : [N, 1, D]`. Result row `e` is the table's row at the start index
  `idx[e, 0]`, read as a signed integer and clamped into `[0, N − 1]` (every start index of a gather is clamped so that
  the slice fits); the other coordinates pass through. So the two tables, one the other with its unit axis dropped,
  gather the same numbers.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows of an `[N, D]` table at a column `[E, 1]` of row numbers. -/
abbrev rowsDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: read signed, clamped into the table. -/
abbrev rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, k)`: the table at the selected row, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf N hN idx e) k) := by
  unfold Host.gather
  refine congrArg x ?_
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = k.val
    rw [GatherDims.batchCoord_eq_zero _ _ _ List.not_mem_nil]
    unfold GatherDims.start
    rw [dif_neg (show (1 : Fin 2) ∉ [(0 : Fin 2)] from by decide)]
    simp only [Nat.add_zero, Nat.zero_add]
    unfold GatherDims.offCoord
    rw [dif_pos ((GatherDims.mem_sKept _ _).mpr ⟨(show (1 : Fin 2) ∉ [(0 : Fin 2)] from by decide), List.not_mem_nil⟩)]
    rfl

/-- The dimension numbers of a gather of whole rows of an `[N, 1, D]` table at a column `[E, 1]` of row numbers. -/
abbrev rowsDims3 (N D E : Nat) (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- THE ROW GATHER OF A TABLE WITH A UNIT MIDDLE AXIS READ AT `(e, u, k)`: the table at the selected row, `(0, k)`. -/
theorem gather_rows3_apply {N D E w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (u : Fin 1) (k : Fin D) :
    Host.gather (rowsDims3 N D E wf) x idx (ix3 e u k) = x (ix3 (rowOf N hN idx e) (0 : Fin 1) k) := by
  unfold Host.gather
  refine congrArg x ?_
  funext a
  refine Fin.ext ?_
  match a with
  | ⟨0, _⟩ =>
    show (rowsDims3 N D E wf).start (ix3 e u k) idx 0 + (rowsDims3 N D E wf).batchCoord (ix3 e u k) 0
      + (rowsDims3 N D E wf).offCoord (ix3 e u k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims3 N D E wf).startIndexMap from List.mem_singleton.mpr rfl)]
    have hsi : (rowsDims3 N D E wf).siIdx (ix3 e u k) ⟨List.idxOf (0 : Fin 3) (rowsDims3 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims3 N D E wf).start (ix3 e u k) idx 1 + (rowsDims3 N D E wf).batchCoord (ix3 e u k) 1
      + (rowsDims3 N D E wf).offCoord (ix3 e u k) 1 = 0
    rw [GatherDims.batchCoord_eq_zero _ _ _ List.not_mem_nil]
    unfold GatherDims.start
    rw [dif_neg (show (1 : Fin 3) ∉ [(0 : Fin 3)] from by decide)]
    simp only [Nat.add_zero, Nat.zero_add]
    unfold GatherDims.offCoord
    rw [dif_pos ((GatherDims.mem_sKept _ _).mpr ⟨(show (1 : Fin 3) ∉ [(0 : Fin 3)] from by decide), List.not_mem_nil⟩)]
    show u.val = 0
    omega
  | ⟨2, _⟩ =>
    show (rowsDims3 N D E wf).start (ix3 e u k) idx 2 + (rowsDims3 N D E wf).batchCoord (ix3 e u k) 2
      + (rowsDims3 N D E wf).offCoord (ix3 e u k) 2 = k.val
    rw [GatherDims.batchCoord_eq_zero _ _ _ List.not_mem_nil]
    unfold GatherDims.start
    rw [dif_neg (show (2 : Fin 3) ∉ [(0 : Fin 3)] from by decide)]
    simp only [Nat.add_zero, Nat.zero_add]
    unfold GatherDims.offCoord
    rw [dif_pos ((GatherDims.mem_sKept _ _).mpr ⟨(show (2 : Fin 3) ∉ [(0 : Fin 3)] from by decide), List.not_mem_nil⟩)]
    rfl

/-- An `[a, 1, c]` array with its unit middle axis dropped reads, at `(r, d)`, the operand at `(r, 0, d)`: row-major, both
    sit at `r · c + d`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (d : Fin c) :
    shapeCast ⟨2, ![a, c]⟩ x h (ix2 r d) = x (ix3 r (0 : Fin 1) d) :=
  shapeCast_apply x h _ _ (by
    rw [Shape.rowMajor_val_two, Shape.rowMajor_val_three]
    show (r.val * 1 + 0) * c + d.val = r.val * c + d.val
    rw [Nat.mul_one, Nat.add_zero])

/-- SO THE TWO GATHERS AGREE: rows gathered from the `[N, 1, D]` table, read at `(e, u, k)`, are the rows gathered from the
    table with its unit axis dropped, read at `(e, k)`. -/
theorem gather_rows3_eq_rows {N D E w : Nat} (hN : 0 < N)
    (wf : GatherDims.WF ⟨2, ![N, D]⟩ ⟨2, ![E, 1]⟩ ⟨2, ![E, D]⟩ [1] [0] [] [0] [] 1 ![1, D])
    (wf3 : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (hc : (⟨3, ![N, 1, D]⟩ : Shape).ShapeCasts ⟨2, ![N, D]⟩)
    (idx : IVec ⟨2, ![E, 1]⟩ w) (e : Fin E) (u : Fin 1) (k : Fin D) :
    Host.gather (rowsDims3 N D E wf3) x idx (ix3 e u k)
      = Host.gather (rowsDims N D E wf) (shapeCast ⟨2, ![N, D]⟩ x hc) idx (ix2 e k) := by
  rw [gather_rows3_apply hN, gather_rows_apply hN, shapeCast_a1c_ac_apply]

end Cert.LibRowGather

end
-- ==== Proof.RefRows.lean ====
/-
  The reference program's lines read at an index.  Its projected text rows and projected pooled-label rows are the
  same affine layers of the same rows as the kernel's; its negative samples are the text rows picked by the
  permutation before the projection, and since the projection acts on each row by itself, the projected picked rows
  are the picked projected rows; its two discriminator passes give each sample's score; and its two means are the
  sums over the batch of the softplus terms, divided by the batch size.
-/
import proofs.«163802_j54125177864859_1_alg».proof.Proof.Gen.ReferenceIdeal.Read
import proofs.«163802_j54125177864859_1_alg».proof.Proof.SpecArrays
import proofs.«163802_j54125177864859_1_alg».proof.Proof.MeanLaws
import proofs.«163802_j54125177864859_1_alg».proof.Proof.LibRowGather
import proofs.«163802_j54125177864859_1_alg».proof.Proof.LibKeepdimsColumn
import Idealize.ShloMosaic.Lib.Pipeline.Value

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- Two indices of a matrix with the same coordinates are equal. -/
theorem idx2_ext {n0 n1 : ℕ} (i j : (⟨2, ![n0, n1]⟩ : Shape).Idx) (h0 : (i 0).val = (j 0).val) (h1 : (i 1).val = (j 1).val) :
    i = j := funext fun a => Fin.ext (by match a with | ⟨0, _⟩ => exact h0 | ⟨1, _⟩ => exact h1)
/-- Two indices of a vector with the same coordinate are equal. -/
theorem idx1_ext {n0 : ℕ} (i j : (⟨1, ![n0]⟩ : Shape).Idx) (h0 : (i 0).val = (j 0).val) : i = j :=
  funext fun a => Fin.ext (by match a with | ⟨0, _⟩ => exact h0)

/-- The reference's projected text rows. -/
theorem text_rows (x0 : (⟨S16384x768, .f32⟩ : BufTy).Contents (Elt Ideal)) (x4 : (⟨S128x768, .f32⟩ : BufTy).Contents (Elt Ideal)) (x5 : (⟨S128, .f32⟩ : BufTy).Contents (Elt Ideal)) :
    val_main_v19 (F := Ideal) x0 x4 x5 = Spec.projText x0 x4 x5 := by
  funext i
  obtain ⟨r, q, rfl⟩ : ∃ (r : Fin 16384) (q : Fin 128), i = ix2 r q := ⟨i 0, i 1, eq_ix2 i⟩
  rw [val_main_v19_apply, val_main_v16_apply, val_main_v18_apply, val_main_v17_apply]
  unfold Spec.projText Spec.affine
  refine congrArg₂ (· + ·) (Finset.sum_congr rfl fun k _ => congrArg₂ (· * ·) ?_ ?_) ?_
  · exact congrArg x0 (idx2_ext _ _ rfl rfl)
  · rw [val_main_v15_apply]; exact congrArg x4 (idx2_ext _ _ rfl rfl)
  · exact congrArg x5 (idx1_ext _ _ rfl)

/-- The reference's pooled label feature at `(r, h)`: the mask row's product with the label embeddings over the
    clamped count (the host's sums start from the zero word, which adds nothing). -/
theorem pooled_at (x1 : (⟨S512x768, .f32⟩ : BufTy).Contents (Elt Ideal)) (x2 : (⟨S16384x512, .i32⟩ : BufTy).Contents (Elt Ideal)) (i : S16384x768.Idx) :
    val_main_v7 (F := Ideal) x1 x2 i
      = Spec.pooled (fun l : Fin 512 => FloatOps.sitofp (F := Ideal) .f32 (x2 (ix2 (i 0 : Fin 16384) l)))
          (fun (l : Fin 512) (h : Fin 768) => x1 (ix2 l h)) (i 1 : Fin 768) := by
  rw [val_main_v7_apply, val_main_v5_apply, val_main_v6_apply, val_main_v4_apply, val_main_v2_apply, val_main_v1_apply, val_main_v3_apply]
  unfold Spec.pooled
  refine congrArg₂ Ideal.div (Finset.sum_congr rfl fun l _ => congrArg₂ (· * ·) ?_ ?_) (congrArg₂ max ?_ rfl)
  · exact congrArg (fun j => FloatOps.sitofp (F := Ideal) .f32 (x2 j)) (idx2_ext _ _ rfl rfl)
  · exact congrArg x1 (idx2_ext _ _ rfl rfl)
  · show Ideal.ofBits .f32 0x00000000#32 + _ = _
    rw [Ideal.ofBits_zero_f32, zero_add]
    exact Finset.sum_congr rfl fun l _ => congrArg (fun j => FloatOps.sitofp (F := Ideal) .f32 (x2 j)) (idx2_ext _ _ rfl rfl)

/-- The reference's projected pooled-label rows. -/
theorem label_rows (x1 : (⟨S512x768, .f32⟩ : BufTy).Contents (Elt Ideal)) (x2 : (⟨S16384x512, .i32⟩ : BufTy).Contents (Elt Ideal)) (x6 : (⟨S128x768, .f32⟩ : BufTy).Contents (Elt Ideal)) (x7 : (⟨S128, .f32⟩ : BufTy).Contents (Elt Ideal)) :
    val_main_v24 (F := Ideal) x1 x2 x6 x7 = Spec.projLabel x2 x1 x6 x7 := by
  funext i
  obtain ⟨r, q, rfl⟩ : ∃ (r : Fin 16384) (q : Fin 128), i = ix2 r q := ⟨i 0, i 1, eq_ix2 i⟩
  rw [val_main_v24_apply, val_main_v21_apply, val_main_v23_apply, val_main_v22_apply]
  unfold Spec.projLabel Spec.affine
  refine congrArg₂ (· + ·) (Finset.sum_congr rfl fun h _ => congrArg₂ (· * ·) ?_ ?_) ?_
  · exact (pooled_at x1 x2 _).trans rfl
  · rw [val_main_v20_apply]; exact congrArg x6 (idx2_ext _ _ rfl rfl)
  · exact congrArg x7 (idx1_ext _ _ rfl)

/-- The reference's projected pooled-label rows (their second computation, for the marginal branch). -/
theorem label_rows' (x1 : (⟨S512x768, .f32⟩ : BufTy).Contents (Elt Ideal)) (x2 : (⟨S16384x512, .i32⟩ : BufTy).Contents (Elt Ideal)) (x6 : (⟨S128x768, .f32⟩ : BufTy).Contents (Elt Ideal)) (x7 : (⟨S128, .f32⟩ : BufTy).Contents (Elt Ideal)) :
    val_main_v57 (F := Ideal) x1 x2 x6 x7 = Spec.projLabel x2 x1 x6 x7 := by
  funext i
  obtain ⟨r, q, rfl⟩ : ∃ (r : Fin 16384) (q : Fin 128), i = ix2 r q := ⟨i 0, i 1, eq_ix2 i⟩
  rw [val_main_v57_apply, val_main_v54_apply, val_main_v56_apply, val_main_v55_apply]
  unfold Spec.projLabel Spec.affine
  refine congrArg₂ (· + ·) (Finset.sum_congr rfl fun h _ => congrArg₂ (· * ·) ?_ ?_) ?_
  · exact (pooled_at x1 x2 _).trans rfl
  · rw [val_main_v53_apply]; exact congrArg x6 (idx2_ext _ _ rfl rfl)
  · exact congrArg x7 (idx1_ext _ _ rfl)

/-- The row of the table each sample's start row selects: read signed and clamped into the table. -/
abbrev picked (x3 : (⟨S16384, .i32⟩ : BufTy).Contents (Elt Ideal)) : Fin 16384 → Fin 16384 :=
  Cert.LibRowGather.rowOf 16384 (by decide) (val_main_v13 (F := Ideal) x3)

/-- The reference's projected negative text rows are the projected text rows, picked. -/
theorem text_rows_picked (x0 : (⟨S16384x768, .f32⟩ : BufTy).Contents (Elt Ideal)) (x3 : (⟨S16384, .i32⟩ : BufTy).Contents (Elt Ideal)) (x4 : (⟨S128x768, .f32⟩ : BufTy).Contents (Elt Ideal)) (x5 : (⟨S128, .f32⟩ : BufTy).Contents (Elt Ideal)) :
    val_main_v52 (F := Ideal) x0 x3 x4 x5 = Spec.pickRows (Spec.projText x0 x4 x5) (picked x3) := by
  funext i
  obtain ⟨r, q, rfl⟩ : ∃ (r : Fin 16384) (q : Fin 128), i = ix2 r q := ⟨i 0, i 1, eq_ix2 i⟩
  rw [val_main_v52_apply, val_main_v49_apply, val_main_v51_apply, val_main_v50_apply]
  unfold Spec.pickRows Spec.projText Spec.affine
  refine congrArg₂ (· + ·) (Finset.sum_congr rfl fun k _ => congrArg₂ (· * ·) ?_ ?_) ?_
  · have e : lidx_main_v49 (ix2 r q) k = ix2 r k := idx2_ext _ _ rfl rfl
    rw [e]
    unfold val_main_v14
    exact Cert.LibRowGather.gather_rows_apply (N := 16384) (D := 768) (E := 16384) (by decide)
      gather_S16384x768_S16384x1_S16384x768_1_0_n_n_0_1_1768_wf x0 (val_main_v13 (F := Ideal) x3) r k
  · rw [val_main_v48_apply]; exact congrArg x4 (idx2_ext _ _ rfl rfl)
  · exact congrArg x5 (idx1_ext _ _ rfl)

/-- Two arrays of 128 columns joined along the columns, read at `(R, k)`. -/
theorem joined_rows (a b : (⟨S16384x128, .f32⟩ : BufTy).Contents (Elt Ideal)) (R : Fin 16384) (k : Fin 256) :
    concatenate S16384x256 1 [⟨S16384x128, a⟩, ⟨S16384x128, b⟩] concatenates_S16384x128_S16384x128_S16384x256_d1 (ix2 R k)
      = Spec.joined (fun j => a (ix2 R j)) (fun j => b (ix2 R j)) k := by
  unfold Spec.joined
  by_cases h : k.val < 128
  · rw [dif_pos h]
    exact concatenate_pair_apply_left 1 a b _ (ix2 R k) rfl (ix2 R (⟨k.val, h⟩ : Fin 128))
      (fun b' => match b' with | ⟨0, _⟩ => rfl | ⟨1, _⟩ => rfl)
  · rw [dif_neg h]
    exact concatenate_pair_apply_right 1 a b _ (ix2 R k) rfl rfl (ix2 R (⟨k.val - 128, by omega⟩ : Fin 128))
      (fun b' hb => match b' with | ⟨0, _⟩ => rfl | ⟨1, _⟩ => absurd rfl hb)
      (by show (k.val - 128) + 128 = k.val; omega)

/-- The joint branch's score of sample `R`, read off the reference's lines. -/
theorem joint_scores (x0 : (⟨S16384x768, .f32⟩ : BufTy).Contents (Elt Ideal)) (x1 : (⟨S512x768, .f32⟩ : BufTy).Contents (Elt Ideal)) (x2 : (⟨S16384x512, .i32⟩ : BufTy).Contents (Elt Ideal)) (x4 : (⟨S128x768, .f32⟩ : BufTy).Contents (Elt Ideal)) (x5 : (⟨S128, .f32⟩ : BufTy).Contents (Elt Ideal)) (x6 : (⟨S128x768, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) (R : Fin 16384) :
    val_main_v42 (F := Ideal) x0 x1 x2 x4 x5 x6 x7 x8 x9 x10 x11 x12 x13 (ix2 R (0 : Fin 1))
      = Spec.scoreAt (val_main_v19 (F := Ideal) x0 x4 x5) (val_main_v24 (F := Ideal) x1 x2 x6 x7) x8 x9 x10 x11 x12 x13 R := by
  rw [val_main_v42_apply, val_main_v39_apply, val_main_v41_apply, val_main_v40_apply]
  unfold Spec.scoreAt Spec.score0 Spec.affine
  refine congrArg₂ (· + ·) (Finset.sum_congr rfl fun k _ => congrArg₂ (· * ·) ?_ ?_) ?_
  · rw [val_main_v37_apply, val_main_v36_apply, val_main_v33_apply, val_main_v35_apply, val_main_v34_apply]
    refine congrArg₂ max (congrArg₂ (· + ·) (Finset.sum_congr rfl fun j _ => congrArg₂ (· * ·) ?_ ?_) ?_) ?_
    · rw [val_main_v31_apply, val_main_v30_apply, val_main_v27_apply, val_main_v29_apply, val_main_v28_apply]
      refine congrArg₂ max (congrArg₂ (· + ·) (Finset.sum_congr rfl fun i _ => congrArg₂ (· * ·) ?_ ?_) ?_) ?_
      · have e : lidx_main_v27 (lidx_main_v33 (lidx_main_v39 (ix2 R (0 : Fin 1)) k) j) i = ix2 R i := idx2_ext _ _ rfl rfl
        rw [e]
        unfold val_main_v25
        exact joined_rows _ _ R i
      · rw [val_main_v26_apply]; exact congrArg x8 (idx2_ext _ _ rfl rfl)
      · exact congrArg x9 (idx1_ext _ _ rfl)
      · rw [val_main_call0_v0_apply]; rfl
    · rw [val_main_v32_apply]; exact congrArg x10 (idx2_ext _ _ rfl rfl)
    · exact congrArg x11 (idx1_ext _ _ rfl)
    · rw [val_main_call1_v0_apply]; rfl
  · rw [val_main_v38_apply]; exact congrArg x12 (idx2_ext _ _ rfl rfl)
  · exact congrArg x13 (idx1_ext _ _ rfl)

/-- The marginal branch's score of sample `R`, read off the reference's lines. -/
theorem marginal_scores (x0 : (⟨S16384x768, .f32⟩ : BufTy).Contents (Elt Ideal)) (x1 : (⟨S512x768, .f32⟩ : BufTy).Contents (Elt Ideal)) (x2 : (⟨S16384x512, .i32⟩ : BufTy).Contents (Elt Ideal)) (x3 : (⟨S16384, .i32⟩ : BufTy).Contents (Elt Ideal)) (x4 : (⟨S128x768, .f32⟩ : BufTy).Contents (Elt Ideal)) (x5 : (⟨S128, .f32⟩ : BufTy).Contents (Elt Ideal)) (x6 : (⟨S128x768, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) (R : Fin 16384) :
    val_main_v75 (F := Ideal) x0 x1 x2 x3 x4 x5 x6 x7 x8 x9 x10 x11 x12 x13 (ix2 R (0 : Fin 1))
      = Spec.scoreAt (val_main_v52 (F := Ideal) x0 x3 x4 x5) (val_main_v57 (F := Ideal) x1 x2 x6 x7) x8 x9 x10 x11 x12 x13 R := by
  rw [val_main_v75_apply, val_main_v72_apply, val_main_v74_apply, val_main_v73_apply]
  unfold Spec.scoreAt Spec.score0 Spec.affine
  refine congrArg₂ (· + ·) (Finset.sum_congr rfl fun k _ => congrArg₂ (· * ·) ?_ ?_) ?_
  · rw [val_main_v70_apply, val_main_v69_apply, val_main_v66_apply, val_main_v68_apply, val_main_v67_apply]
    refine congrArg₂ max (congrArg₂ (· + ·) (Finset.sum_congr rfl fun j _ => congrArg₂ (· * ·) ?_ ?_) ?_) ?_
    · rw [val_main_v64_apply, val_main_v63_apply, val_main_v60_apply, val_main_v62_apply, val_main_v61_apply]
      refine congrArg₂ max (congrArg₂ (· + ·) (Finset.sum_congr rfl fun i _ => congrArg₂ (· * ·) ?_ ?_) ?_) ?_
      · have e : lidx_main_v60 (lidx_main_v66 (lidx_main_v72 (ix2 R (0 : Fin 1)) k) j) i = ix2 R i := idx2_ext _ _ rfl rfl
        rw [e]
        unfold val_main_v58
        exact joined_rows _ _ R i
      · rw [val_main_v59_apply]; exact congrArg x8 (idx2_ext _ _ rfl rfl)
      · exact congrArg x9 (idx1_ext _ _ rfl)
      · rw [val_main_call3_v0_apply]; rfl
    · rw [val_main_v65_apply]; exact congrArg x10 (idx2_ext _ _ rfl rfl)
    · exact congrArg x11 (idx1_ext _ _ rfl)
    · rw [val_main_call4_v0_apply]; rfl
  · rw [val_main_v71_apply]; exact congrArg x12 (idx2_ext _ _ rfl rfl)
  · exact congrArg x13 (idx1_ext _ _ rfl)

end Cert.ReferenceIdeal.RefValue

end
-- ==== Proof.RefTotals.lean ====
/-
  The reference program's two sums and its result.  Each softplus line of the reference is the same stable softplus
  as the kernel's (its negation of the absolute value is the kernel's subtraction from zero, its not-a-number test the
  kernel's); its first sum runs over the softplus of the NEGATED joint scores (a negation is a subtraction from
  zero), its second over the softplus of the marginal scores; each sum starts from the zero word; and the result is
  the second sum over the batch size minus the negated first sum over the batch size.
-/
import proofs.«163802_j54125177864859_1_alg».proof.Proof.RefRows

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The reference's softplus lines are the stable softplus. -/
theorem softplus_host (y : Ideal .f32) :
    Scalar.select (FloatOps.cmpf .une (FloatOps.subf y Spec.z) (FloatOps.subf y Spec.z)) (FloatOps.addf y Spec.z)
        (FloatOps.addf (FloatOps.maximumf y Spec.z)
          (FloatOps.hostUnary .log1p (FloatOps.hostUnary .exp (FloatOps.hostNegf (FloatOps.hostAbsf (FloatOps.subf y Spec.z))))))
      = Spec.softplus y := by
  unfold Spec.softplus
  simp only [Ideal.hostUnary_log1p_def, Ideal.hostUnary_exp_def, Ideal.hostNegf_def, Ideal.hostAbsf_def, Ideal.subf_def,
    Ideal.negf_def, Ideal.log1p_def, Ideal.exp_def, Cert.MeanLaws.zero_sub']
  rfl

/-- The reference's first sum: zero plus the sum over the batch of `softplus (0 - score)`, the scores the joint ones. -/
theorem joint_total (x0 : (⟨S16384x768, .f32⟩ : BufTy).Contents (Elt Ideal)) (x1 : (⟨S512x768, .f32⟩ : BufTy).Contents (Elt Ideal)) (x2 : (⟨S16384x512, .i32⟩ : BufTy).Contents (Elt Ideal)) (x4 : (⟨S128x768, .f32⟩ : BufTy).Contents (Elt Ideal)) (x5 : (⟨S128, .f32⟩ : BufTy).Contents (Elt Ideal)) (x6 : (⟨S128x768, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) (i : S_.Idx) :
    val_main_v45 (F := Ideal) x0 x1 x2 x4 x5 x6 x7 x8 x9 x10 x11 x12 x13 i
      = Spec.z + ∑ R : Fin 16384, Spec.softplus (Spec.z - Spec.scoreAt (val_main_v19 (F := Ideal) x0 x4 x5)
          (val_main_v24 (F := Ideal) x1 x2 x6 x7) x8 x9 x10 x11 x12 x13 R) := by
  rw [val_main_v45_apply, Cert.LibKeepdims.sum_idx_column]
  refine congrArg₂ (· + ·) rfl (Finset.sum_congr rfl fun R _ => ?_)
  rw [← joint_scores x0 x1 x2 x4 x5 x6 x7 x8 x9 x10 x11 x12 x13 R, Cert.MeanLaws.zero_sub']
  exact softplus_host _

/-- The reference's second sum: zero plus the sum over the batch of `softplus score`, the scores the marginal ones. -/
theorem marginal_total (x0 : (⟨S16384x768, .f32⟩ : BufTy).Contents (Elt Ideal)) (x1 : (⟨S512x768, .f32⟩ : BufTy).Contents (Elt Ideal)) (x2 : (⟨S16384x512, .i32⟩ : BufTy).Contents (Elt Ideal)) (x3 : (⟨S16384, .i32⟩ : BufTy).Contents (Elt Ideal)) (x4 : (⟨S128x768, .f32⟩ : BufTy).Contents (Elt Ideal)) (x5 : (⟨S128, .f32⟩ : BufTy).Contents (Elt Ideal)) (x6 : (⟨S128x768, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) (i : S_.Idx) :
    val_main_v77 (F := Ideal) x0 x1 x2 x3 x4 x5 x6 x7 x8 x9 x10 x11 x12 x13 i
      = Spec.z + ∑ R : Fin 16384, Spec.softplus (Spec.scoreAt (val_main_v52 (F := Ideal) x0 x3 x4 x5)
          (val_main_v57 (F := Ideal) x1 x2 x6 x7) x8 x9 x10 x11 x12 x13 R) := by
  rw [val_main_v77_apply, Cert.LibKeepdims.sum_idx_column]
  refine congrArg₂ (· + ·) rfl (Finset.sum_congr rfl fun R _ => ?_)
  rw [← marginal_scores x0 x1 x2 x3 x4 x5 x6 x7 x8 x9 x10 x11 x12 x13 R]
  exact softplus_host _

/-- The reference's result: the second mean minus the negated first mean. -/
theorem result_value (x0 : (⟨S16384x768, .f32⟩ : BufTy).Contents (Elt Ideal)) (x1 : (⟨S512x768, .f32⟩ : BufTy).Contents (Elt Ideal)) (x2 : (⟨S16384x512, .i32⟩ : BufTy).Contents (Elt Ideal)) (x3 : (⟨S16384, .i32⟩ : BufTy).Contents (Elt Ideal)) (x4 : (⟨S128x768, .f32⟩ : BufTy).Contents (Elt Ideal)) (x5 : (⟨S128, .f32⟩ : BufTy).Contents (Elt Ideal)) (x6 : (⟨S128x768, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) (i : S_.Idx) :
    val_main_v79 (F := Ideal) x0 x1 x2 x3 x4 x5 x6 x7 x8 x9 x10 x11 x12 x13 i
      = Ideal.div (val_main_v77 (F := Ideal) x0 x1 x2 x3 x4 x5 x6 x7 x8 x9 x10 x11 x12 x13 i) (Ideal.ofBits .f32 0x46800000#32)
        - -(Ideal.div (val_main_v45 (F := Ideal) x0 x1 x2 x4 x5 x6 x7 x8 x9 x10 x11 x12 x13 i) (Ideal.ofBits .f32 0x46800000#32)) := rfl

end Cert.ReferenceIdeal.RefValue

end
-- ==== Proof.Bridge.lean ====
/-
  The two programs compute one number.  Read back, the kernel program's result is
  `((0 + J) + (0 + M)) / B` and the reference's is `(0 + M) / B - (-((0 + J) / B))`, where `J` is the sum over the batch
  of `softplus (0 - score)` at the joint rows, `M` the sum of `softplus score` at the marginal rows — the projected
  text rows picked by the permutation, whether picked before the projection (the reference) or after it (the kernel)
  — and `B` the batch size.  The two spellings agree on the extended reals for every value of the two sums.
-/
import proofs.«163802_j54125177864859_1_alg».proof.Proof.KernelRun
import proofs.«163802_j54125177864859_1_alg».proof.Proof.HostLines
import proofs.«163802_j54125177864859_1_alg».proof.Proof.Features
import proofs.«163802_j54125177864859_1_alg».proof.Proof.Discriminator
import proofs.«163802_j54125177864859_1_alg».proof.Proof.RefTotals

set_option maxRecDepth 16384

noncomputable section

namespace Cert.Spec

open Idealize.ShloMosaic Idealize.ShloMosaic.ValueIdx

/-- The joint sum: zero plus the sum over the batch of `softplus (0 - score)`, the scores from each sample's own rows. -/
def jointSum (x0 : Spec.Mat 16384 768 → EReal) (x1 : Spec.Mat 512 768 → EReal) (x2 : Spec.Mat 16384 512 → BitVec 32) (x4 : Spec.Mat 128 768 → EReal) (x5 : Spec.Row 128 → EReal) (x6 : Spec.Mat 128 768 → EReal) (x7 : Spec.Row 128 → EReal) (x8 : Spec.Mat 128 256 → EReal) (x9 : Spec.Row 128 → EReal) (x10 : Spec.Mat 128 128 → EReal) (x11 : Spec.Row 128 → EReal) (x12 : Spec.Mat 1 128 → EReal) (x13 : Spec.Row 1 → EReal) : EReal :=
  z + ∑ R : Fin 16384, softplus (z - scoreAt (projText x0 x4 x5) (projLabel x2 x1 x6 x7) x8 x9 x10 x11 x12 x13 R)

/-- The marginal sum: zero plus the sum over the batch of `softplus score`, the text rows picked by `sel`. -/
def margSum (x0 : Spec.Mat 16384 768 → EReal) (x1 : Spec.Mat 512 768 → EReal) (x2 : Spec.Mat 16384 512 → BitVec 32) (x4 : Spec.Mat 128 768 → EReal) (x5 : Spec.Row 128 → EReal) (x6 : Spec.Mat 128 768 → EReal) (x7 : Spec.Row 128 → EReal) (x8 : Spec.Mat 128 256 → EReal) (x9 : Spec.Row 128 → EReal) (x10 : Spec.Mat 128 128 → EReal) (x11 : Spec.Row 128 → EReal) (x12 : Spec.Mat 1 128 → EReal) (x13 : Spec.Row 1 → EReal) (sel : Fin 16384 → Fin 16384) : EReal :=
  z + ∑ R : Fin 16384, softplus (scoreAt (pickRows (projText x0 x4 x5) sel) (projLabel x2 x1 x6 x7) x8 x9 x10 x11 x12 x13 R)

end Cert.Spec

namespace Cert.Bridge

open Idealize.ShloMosaic Idealize.ShloMosaic.TcCoe Idealize.ShloMosaic.ValueIdx Idealize.SL.Sem

section Kernel
open Cert.KernelIdeal Cert.KernelIdeal.Gen

variable (m : (ℓ : Loc nD τ sig) → Buf (Elt Ideal) ℓ) (ρ : Dev nD → PrngReg)

/-- The rows the kernel program's gather picks. -/
abbrev kernelPick (c : Dev nD) : Fin 16384 → Fin 16384 :=
  Cert.LibRowGather.rowOf 16384 (by decide) (HostLines.startRows (m ((c.tc : Thread nD τ).loc main_arg3)))

/-- The kernel program's result, read back through its four segments. -/
theorem kernel_value (c : Dev nD) :
    W4 m ρ c (Proc.devRef .tc main_v12) = fun _ =>
      Ideal.div (Spec.jointSum (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) + Spec.margSum (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (kernelPick m c))
        (Ideal.ofBits .f32 0x46800000#32) := by
  have e0 : V2 m ρ c main_v0_0 = Spec.projText (m ((c.tc : Thread nD τ).loc main_arg0)) (m ((c.tc : Thread nD τ).loc main_arg4)) (m ((c.tc : Thread nD τ).loc main_arg5)) :=
    (HostLines.entry_text m ρ c).trans (Features.final_text (V0 m ρ) c)
  have e1 : V2 m ρ c main_v0_1 = Spec.projLabel (m ((c.tc : Thread nD τ).loc main_arg2)) (m ((c.tc : Thread nD τ).loc main_arg1)) (m ((c.tc : Thread nD τ).loc main_arg6)) (m ((c.tc : Thread nD τ).loc main_arg7)) :=
    (HostLines.entry_label m ρ c).trans (Features.final_label (V0 m ρ) c)
  have e7 : V2 m ρ c main_v7 = Spec.pickRows (Spec.projText (m ((c.tc : Thread nD τ).loc main_arg0)) (m ((c.tc : Thread nD τ).loc main_arg4)) (m ((c.tc : Thread nD τ).loc main_arg5))) (kernelPick m c) := by
    rw [HostLines.entry_gathered, Features.final_text (V0 m ρ) c]
    funext i
    obtain ⟨r, q, rfl⟩ : ∃ (r : Fin 16384) (q : Fin 128), i = ix2 r q := ⟨i 0, i 1, eq_ix2 i⟩
    exact Cert.LibRowGather.gather_rows_apply (N := 16384) (D := 128) (E := 16384) (by decide)
      gather_S16384x128_S16384x1_S16384x128_1_0_n_n_0_1_1128_wf _ _ r q
  rw [HostLines.result_value]
  funext _
  unfold Spec.jointSum Spec.margSum
  refine congrArg (fun x => Ideal.div x (Ideal.ofBits .f32 0x46800000#32)) (congrArg₂ (· + ·) ?_ ?_)
  · refine (Discriminator.joint_value (V2 m ρ) c).trans ?_
    rw [e0, e1, HostLines.entry_arg8, HostLines.entry_arg9, HostLines.entry_arg10, HostLines.entry_arg11,
      HostLines.entry_arg12, HostLines.entry_arg13]
  · refine (Discriminator.marg_value (V2 m ρ) c).trans ?_
    rw [e7, e1, HostLines.entry_arg8, HostLines.entry_arg9, HostLines.entry_arg10, HostLines.entry_arg11,
      HostLines.entry_arg12, HostLines.entry_arg13]

end Kernel

section Reference
open Cert.ReferenceIdeal Cert.ReferenceIdeal.Gen Cert.ReferenceIdeal.Read Cert.ReferenceIdeal.RefValue

/-- The reference program's result, read back line by line. -/
theorem reference_value (x0 : (⟨S16384x768, .f32⟩ : BufTy).Contents (Elt Ideal)) (x1 : (⟨S512x768, .f32⟩ : BufTy).Contents (Elt Ideal)) (x2 : (⟨S16384x512, .i32⟩ : BufTy).Contents (Elt Ideal)) (x3 : (⟨S16384, .i32⟩ : BufTy).Contents (Elt Ideal)) (x4 : (⟨S128x768, .f32⟩ : BufTy).Contents (Elt Ideal)) (x5 : (⟨S128, .f32⟩ : BufTy).Contents (Elt Ideal)) (x6 : (⟨S128x768, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S1, .f32⟩ : BufTy).Contents (Elt Ideal)) (i : S_.Idx) :
    val_main_v79 (F := Ideal) x0 x1 x2 x3 x4 x5 x6 x7 x8 x9 x10 x11 x12 x13 i
      = Ideal.div (Spec.margSum x0 x1 x2 x4 x5 x6 x7 x8 x9 x10 x11 x12 x13 (picked x3)) (Ideal.ofBits .f32 0x46800000#32)
        - -(Ideal.div (Spec.jointSum x0 x1 x2 x4 x5 x6 x7 x8 x9 x10 x11 x12 x13) (Ideal.ofBits .f32 0x46800000#32)) := by
  rw [result_value, marginal_total, joint_total, text_rows, label_rows, text_rows_picked, label_rows']
  rfl

end Reference

/-- The kernel program's result is the reference's result of the same arguments. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v12)
      = Cert.ReferenceIdeal.Read.val_main_v79 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13)) := by
  rw [kernel_value]
  funext i
  rw [reference_value, Cert.MeanLaws.mean_split]
  rfl

end Cert.Bridge

end
-- ==== Proof.lean ====
/-
  The certificate's five claims for the mutual-information loss kernel.

  The kernel program runs two regions: the first projects every sample's text embedding and its mean-pooled label
  embedding to 128 features; the host then picks, for every sample, the projected text row its permutation entry
  names; the second region runs the three-layer discriminator on the joint pairs and on the marginal pairs and
  accumulates, block after block, the sums of `softplus (-score)` and of `softplus score`; the host adds the two sums
  and divides by the batch size.  The reference permutes the text rows BEFORE projecting them, runs the discriminator
  on whole arrays, takes the two means separately and subtracts the negated first from the second.

  The three frames are the generated frame runs (the reference's is its generated run with the result dropped); no
  operation of the kernel is rewritten by the idealization, so `preserves` is trivial; and at the ideal instance the
  two results are equal for every input: a projection acts on each row by itself, so picking rows commutes with it;
  a sum over the batch is the sum of its eight block sums; and `(J + M) / B = M / B - (-(J / B))` on the extended
  reals for every `J`, `M` (Proof/Bridge.lean).  The precondition is not used.
-/
import proofs.«163802_j54125177864859_1_alg».proof.Defs
import proofs.«163802_j54125177864859_1_alg».proof.Proof.Gen.Kernel
import proofs.«163802_j54125177864859_1_alg».proof.Proof.Gen.Kernel.Frame
import proofs.«163802_j54125177864859_1_alg».proof.Proof.Gen.KernelIdeal
import proofs.«163802_j54125177864859_1_alg».proof.Proof.Gen.KernelIdeal.Frame
import proofs.«163802_j54125177864859_1_alg».proof.Proof.Gen.ReferenceIdeal
import proofs.«163802_j54125177864859_1_alg».proof.Proof.Gen.Pre_finite_inputs
import proofs.«163802_j54125177864859_1_alg».proof.Proof.Gen.ReferenceIdeal.Run
import proofs.«163802_j54125177864859_1_alg».proof.Proof.Gen.ReferenceIdeal.Read
import proofs.«163802_j54125177864859_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with equal results. -/
theorem algebraic : Cert.algebraic_KernelIdeal_ReferenceIdeal := by
  intro m ρ m' ρ' _ hagree
  refine ⟨fun c => Cert.KernelIdeal.Gen.W4 m ρ c (Proc.devRef .tc Cert.KernelIdeal.main_v12),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Bridge.results_agree m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
